-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x128 : Shape := ⟨3, ![8, 2048, 128]⟩
abbrev S8x2048x2048 : Shape := ⟨3, ![8, 2048, 2048]⟩
abbrev S128x128 : Shape := ⟨2, ![128, 128]⟩
abbrev S128 : Shape := ⟨1, ![128]⟩
abbrev S384x128 : Shape := ⟨2, ![384, 128]⟩
abbrev S384 : Shape := ⟨1, ![384]⟩
abbrev S_ : Shape := ⟨0, ![]⟩

class Facts : Prop where
  bcast_S_S8x2048x128 : S_.BroadcastsInDim S8x2048x128 (![] : Fin 0 → Fin S8x2048x128.rank)
  reducesTo_S8x2048x128_S_d0_1_2 : S8x2048x128.ReducesTo [0, 1, 2] S_
  h_S_ : 0 < S_.numel
  bcast_S_S8x2048x2048 : S_.BroadcastsInDim S8x2048x2048 (![] : Fin 0 → Fin S8x2048x2048.rank)
  reducesTo_S8x2048x2048_S_d0_1_2 : S8x2048x2048.ReducesTo [0, 1, 2] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S384x128 : S_.BroadcastsInDim S384x128 (![] : Fin 0 → Fin S384x128.rank)
  reducesTo_S384x128_S_d0_1 : S384x128.ReducesTo [0, 1] S_
  bcast_S_S384 : S_.BroadcastsInDim S384 (![] : Fin 0 → Fin S384.rank)
  reducesTo_S384_S_d0 : S384.ReducesTo [0] S_

variable [Facts]

def fn_part2 {F : FTy → Type} [FloatOps F] (main_arg7 : FVec F S384x128 .f32) (main_arg8 : FVec F S384 .f32) (main_arg9 : FVec F S384 .f32) (main_v33 : IVec S_ 1) : IVec S_ 1 :=
  let main_v34 : FVec F S384x128 .f32 := Host.absf main_arg7
  let main_cst_12 : FVec F S_ .f32 := constant S_ .f32 0x7F800000#32
  let main_v35 : FVec F S384x128 .f32 := broadcastInDim S384x128 ![] bcast_S_S384x128 main_cst_12
  let main_v36 : IVec S384x128 1 := cmpf .olt main_v34 main_v35
  let main_c_13 : IVec S_ 1 := constantI S_ 1 1#1
  let main_v37 : IVec S_ 1 := (fun x v => Host.reduce IntOp.andi x v reducesTo_S384x128_S_d0_1 h_S_) main_v36 main_c_13
  let main_v38 : IVec S_ 1 := andi main_v33 main_v37
  let main_v39 : FVec F S384 .f32 := Host.absf main_arg8
  let main_cst_14 : FVec F S_ .f32 := constant S_ .f32 0x7F800000#32
  let main_v40 : FVec F S384 .f32 := broadcastInDim S384 ![] bcast_S_S384 main_cst_14
  let main_v41 : IVec S384 1 := cmpf .olt main_v39 main_v40
  let main_c_15 : IVec S_ 1 := constantI S_ 1 1#1
  let main_v42 : IVec S_ 1 := (fun x v => Host.reduce IntOp.andi x v reducesTo_S384_S_d0 h_S_) main_v41 main_c_15
  let main_v43 : IVec S_ 1 := andi main_v38 main_v42
  let main_v44 : FVec F S384 .f32 := Host.absf main_arg9
  let main_cst_16 : FVec F S_ .f32 := constant S_ .f32 0x7F800000#32
  let main_v45 : FVec F S384 .f32 := broadcastInDim S384 ![] bcast_S_S384 main_cst_16
  let main_v46 : IVec S384 1 := cmpf .olt main_v44 main_v45
  let main_c_17 : IVec S_ 1 := constantI S_ 1 1#1
  let main_v47 : IVec S_ 1 := (fun x v => Host.reduce IntOp.andi x v reducesTo_S384_S_d0 h_S_) main_v46 main_c_17
  let main_v48 : IVec S_ 1 := andi main_v43 main_v47
  main_v48

def fn_part1 {F : FTy → Type} [FloatOps F] (main_arg4 : FVec F S128x128 .f32) (main_arg5 : FVec F S128 .f32) (main_arg6 : FVec F S384x128 .f32) (main_arg7 : FVec F S384x128 .f32) (main_arg8 : FVec F S384 .f32) (main_arg9 : FVec F S384 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S384x128 .f32 := Host.absf main_arg6
  let main_cst_10 : FVec F S_ .f32 := constant S_ .f32 0x7F800000#32
  let main_v30 : FVec F S384x128 .f32 := broadcastInDim S384x128 ![] bcast_S_S384x128 main_cst_10
  let main_v31 : IVec S384x128 1 := cmpf .olt main_v29 main_v30
  let main_c_11 : IVec S_ 1 := constantI S_ 1 1#1
  let main_v32 : IVec S_ 1 := (fun x v => Host.reduce IntOp.andi x v reducesTo_S384x128_S_d0_1 h_S_) main_v31 main_c_11
  let main_v33 : IVec S_ 1 := andi main_v28 main_v32
  fn_part2 (F := F) main_arg7 main_arg8 main_arg9 main_v33

def fn {F : FTy → Type} [FloatOps F] (main_arg0 : FVec F S8x2048x128 .f32) (main_arg1 : FVec F S8x2048x2048 .f32) (main_arg2 : FVec F S128x128 .f32) (main_arg3 : FVec F S128 .f32) (main_arg4 : FVec F S128x128 .f32) (main_arg5 : FVec F S128 .f32) (main_arg6 : FVec F S384x128 .f32) (main_arg7 : FVec F S384x128 .f32) (main_arg8 : FVec F S384 .f32) (main_arg9 : FVec F S384 .f32) : IVec S_ 1 :=
  let main_v0 : FVec F S8x2048x128 .f32 := Host.absf main_arg0
  let main_cst : FVec F S_ .f32 := constant S_ .f32 0x7F800000#32
  let main_v1 : FVec F S8x2048x128 .f32 := broadcastInDim S8x2048x128 ![] bcast_S_S8x2048x128 main_cst
  let main_v2 : IVec S8x2048x128 1 := cmpf .olt main_v0 main_v1
  let main_c : IVec S_ 1 := constantI S_ 1 1#1
  let main_v3 : IVec S_ 1 := (fun x v => Host.reduce IntOp.andi x v reducesTo_S8x2048x128_S_d0_1_2 h_S_) main_v2 main_c
  let main_v4 : FVec F S8x2048x2048 .f32 := Host.absf main_arg1
  let main_cst_0 : FVec F S_ .f32 := constant S_ .f32 0x7F800000#32
  let main_v5 : FVec F S8x2048x2048 .f32 := broadcastInDim S8x2048x2048 ![] bcast_S_S8x2048x2048 main_cst_0
  let main_v6 : IVec S8x2048x2048 1 := cmpf .olt main_v4 main_v5
  let main_c_1 : IVec S_ 1 := constantI S_ 1 1#1
  let main_v7 : IVec S_ 1 := (fun x v => Host.reduce IntOp.andi x v reducesTo_S8x2048x2048_S_d0_1_2 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_v13 main_v16
-- ==== Kernel.lean ====
abbrev S8x2048x128 : Shape := ⟨3, ![8, 2048, 128]⟩
abbrev S8x2048x2048 : Shape := ⟨3, ![8, 2048, 2048]⟩
abbrev S128x128 : Shape := ⟨2, ![128, 128]⟩
abbrev S128 : Shape := ⟨1, ![128]⟩
abbrev S384x128 : Shape := ⟨2, ![384, 128]⟩
abbrev S384 : Shape := ⟨1, ![384]⟩
abbrev S128x384 : Shape := ⟨2, ![128, 384]⟩
abbrev S1x128 : Shape := ⟨2, ![1, 128]⟩
abbrev S1x384 : Shape := ⟨2, ![1, 384]⟩
abbrev S1x512x2048 : Shape := ⟨3, ![1, 512, 2048]⟩
abbrev S1x2048x128 : Shape := ⟨3, ![1, 2048, 128]⟩
abbrev S1x512x128 : Shape := ⟨3, ![1, 512, 128]⟩
abbrev S2048x128 : Shape := ⟨2, ![2048, 128]⟩
abbrev S512x2048 : Shape := ⟨2, ![512, 2048]⟩
abbrev S512x128 : Shape := ⟨2, ![512, 128]⟩
abbrev S512x384 : Shape := ⟨2, ![512, 384]⟩

abbrev nBuf : Space → Nat
  | .hbm => 19
  | .vmem => 15
  | .smem => 0
  | _ => 0

abbrev bufTy : (tb : Table) → Fin (tcTables nBuf tb) → BufTy
  | .hbm, ⟨0, _⟩ => ⟨S8x2048x128, .f32⟩
  | .hbm, ⟨1, _⟩ => ⟨S8x2048x2048, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S384x128, .f32⟩
  | .hbm, ⟨7, _⟩ => ⟨S384x128, .f32⟩
  | .hbm, ⟨8, _⟩ => ⟨S384, .f32⟩
  | .hbm, ⟨9, _⟩ => ⟨S384, .f32⟩
  | .hbm, ⟨10, _⟩ => ⟨S128x128, .f32⟩
  | .hbm, ⟨11, _⟩ => ⟨S128x128, .f32⟩
  | .hbm, ⟨12, _⟩ => ⟨S128x384, .f32⟩
  | .hbm, ⟨13, _⟩ => ⟨S128x384, .f32⟩
  | .hbm, ⟨14, _⟩ => ⟨S1x128, .f32⟩
  | .hbm, ⟨15, _⟩ => ⟨S1x128, .f32⟩
  | .hbm, ⟨16, _⟩ => ⟨S1x384, .f32⟩
  | .hbm, ⟨17, _⟩ => ⟨S1x384, .f32⟩
  | .hbm, ⟨18, _⟩ => ⟨S8x2048x128, .f32⟩
  | .local _ .vmem, ⟨0, _⟩ => ⟨S1x512x2048, .f32⟩
  | .local _ .vmem, ⟨1, _⟩ => ⟨S1x512x2048, .f32⟩
  | .local _ .vmem, ⟨2, _⟩ => ⟨S1x2048x128, .f32⟩
  | .local _ .vmem, ⟨3, _⟩ => ⟨S1x2048x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S128x384, .f32⟩
  | .local _ .vmem, ⟨9, _⟩ => ⟨S128x384, .f32⟩
  | .local _ .vmem, ⟨10, _⟩ => ⟨S1x384, .f32⟩
  | .local _ .vmem, ⟨11, _⟩ => ⟨S1x384, .f32⟩
  | .local _ .vmem, ⟨12, _⟩ => ⟨S1x512x128, .f32⟩
  | .local _ .vmem, ⟨13, _⟩ => ⟨S1x512x128, .f32⟩
  | .local _ .vmem, ⟨14, _⟩ => ⟨S2048x128, .bf16⟩
  | _, _ => ⟨S8x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let arg1 : BitVec 32 := BitVec.ofNat 32 (i 1).val
  let c512_i32 : BitVec 32 := 512#32
  let v11 : BitVec 32 := Scalar.muli arg1 c512_i32
  v11
def k0_off1 (i : grid0.Coords) : Fin 3 → Nat :=
  let c0_6 : Index := 0#32
  let arg1 : BitVec 32 := BitVec.ofNat 32 (i 1).val
  let c512_i32 : BitVec 32 := 512#32
  let v11 : BitVec 32 := Scalar.muli arg1 c512_i32
  let v12 : BitVec 32 := v11
  let v13 : Index := Scalar.indexCast v12
  let c0_7 : Index := 0#32
  ![0, v13.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x384 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

class Facts₀ : Prop where
  transposes_S128x128_S128x128_1_0 : S128x128.Transposes [1, 0] S128x128
  transposes_S384x128_S128x384_1_0 : S384x128.Transposes [1, 0] S128x384
  shapeCasts_S128_S1x128 : S128.ShapeCasts S1x128
  shapeCasts_S384_S1x384 : S384.ShapeCasts S1x384
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  packedbf16_S2048x128_S2048x128_0_0 : (Rect.unit (s := S2048x128) ![0, 0] S2048x128.size inb_S2048x128_S2048x128_0_0).PackedRows (EltTy.packing .bf16)
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  h_S1x512x128 : 0 < S1x512x128.numel
  shapeCasts_S1x512x128_S512x128 : S1x512x128.ShapeCasts S512x128
  inb_S128x384_S128x384_0_0 : ∀ a, (![0, 0] : Fin 2 → Nat) a + S128x384.size a ≤ S128x384.size a
  h_S128x384 : 0 < S128x384.numel
  shapeCasts_S128x384_S128x384 : S128x384.ShapeCasts S128x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S512x384 : S1x384.Broadcasts S512x384
  slices_S512x384_o0_0_S512x128 : S512x384.Slices ![0, 0] S512x128
  slices_S512x384_o0_128_S512x128 : S512x384.Slices ![0, 128] S512x128
  slices_S512x384_o0_256_S512x128 : S512x384.Slices ![0, 256] S512x128
  inb_S1x512x128_S1x512x128_0_0_0 : ∀ a, (![0, 0, 0] : Fin 3 → Nat) a + S1x512x128.size a ≤ S1x512x128.size a
  shapeCasts_S512x128_S1x512x128 : S512x128.ShapeCasts S1x512x128
  dot_S2048x128_S128x128_S2048x128_1_0_0_1_n_n_wf : DotDims.WF S2048x128 S128x128 S2048x128 [1] [0] [0] [1] [] []
  dot_S512x2048_S2048x128_S512x128_1_0_0_1_n_n_wf : DotDims.WF S512x2048 S2048x128 S512x128 [1] [0] [0] [1] [] []
  dot_S512x128_S128x384_S512x384_1_0_0_1_n_n_wf : DotDims.WF S512x128 S128x384 S512x384 [1] [0] [0] [1] [] []
  hrank0 : 0 < grid0.rank
  k0_mult1_dvd : ∀ i : grid0.Coords, 512 ∣ (k0_mult1 i).toNat
  k0_off1_inb : ∀ i : grid0.Coords, ∀ a, (k0_off1 i) a + S1x512x128.size a ≤ S1x2048x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x2048.size a ≤ S8x2048x2048.size a
  hwx0_0 : ∀ i : grid0.Coords, EltTy.bits .f32 = 32 ∨ (Rect.block (s := S8x2048x2048) S1x512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x128.size a ≤ S8x2048x128.size a
  hwx0_1 : ∀ i : grid0.Coords, EltTy.bits .f32 = 32 ∨ (Rect.block (s := S8x2048x128) S1x2048x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x384.size a ≤ S128x384.size a
  hwx0_6 : ∀ i : grid0.Coords, EltTy.bits .f32 = 32 ∨ (Rect.block (s := S128x384) S128x384.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x384.size a ≤ S128x384.size a
  hwx0_7 : ∀ i : grid0.Coords, EltTy.bits .f32 = 32 ∨ (Rect.block (s := S128x384) S128x384.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x384.size a ≤ S1x384.size a
  hwx0_8 : ∀ i : grid0.Coords, EltTy.bits .f32 = 32 ∨ (Rect.block (s := S1x384) S1x384.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x384.size a ≤ S1x384.size a
  hwx0_9 : ∀ i : grid0.Coords, EltTy.bits .f32 = 32 ∨ (Rect.block (s := S1x384) S1x384.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x512x128.size a ≤ S8x2048x128.size a
  hwx0_10 : ∀ i : grid0.Coords, EltTy.bits .f32 = 32 ∨ (Rect.block (s := S8x2048x128) S1x512x128.size (cc0_transform_10 i) (hinb0_10 i)).WholeWords (EltTy.packing .f32)

variable [Facts₀]

def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S512x2048_S2048x128_S512x128_1_0_0_1_n_n : DotDims S512x2048 S2048x128 S512x128 where
  lhsContracting := [1]
  rhsContracting := [0]
  lhsNonContracting := [0]
  rhsNonContracting := [1]
  lhsBatch := []
  rhsBatch := []
  wf := dot_S512x2048_S2048x128_S512x128_1_0_0_1_n_n_wf
def dot_S512x128_S128x384_S512x384_1_0_0_1_n_n : DotDims S512x128 S128x384 S512x384 where
  lhsContracting := [1]
  rhsContracting := [0]
  lhsNonContracting := [0]
  rhsNonContracting := [1]
  lhsBatch := []
  rhsBatch := []
  wf := dot_S512x128_S128x384_S512x384_1_0_0_1_n_n_wf

abbrev win0_0 : Pipeline.Window sig grid0 :=
  Pipeline.Window.ofSpec (Memref.whole main_arg1) S1x512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S128x384.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S128x384.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v6) S1x384.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v7) S1x384.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v8) S1x512x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S8x2048x128 : Shape := ⟨3, ![8, 2048, 128]⟩
abbrev S8x2048x2048 : Shape := ⟨3, ![8, 2048, 2048]⟩
abbrev S128x128 : Shape := ⟨2, ![128, 128]⟩
abbrev S128 : Shape := ⟨1, ![128]⟩
abbrev S384x128 : Shape := ⟨2, ![384, 128]⟩
abbrev S384 : Shape := ⟨1, ![384]⟩
abbrev S1x1x128 : Shape := ⟨3, ![1, 1, 128]⟩
abbrev S_ : Shape := ⟨0, ![]⟩
abbrev S8x2048x384 : Shape := ⟨3, ![8, 2048, 384]⟩
abbrev S1x1x384 : Shape := ⟨3, ![1, 1, 384]⟩

abbrev nBuf : Space → Nat
  | .hbm => 69
  | .vmem => 0
  | .smem => 0
  | _ => 0

abbrev bufTy : (tb : Table) → Fin (tcTables nBuf tb) → BufTy
  | .hbm, ⟨0, _⟩ => ⟨S8x2048x128, .f32⟩
  | .hbm, ⟨1, _⟩ => ⟨S8x2048x2048, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S384x128, .f32⟩
  | .hbm, ⟨7, _⟩ => ⟨S384x128, .f32⟩
  | .hbm, ⟨8, _⟩ => ⟨S384, .f32⟩
  | .hbm, ⟨9, _⟩ => ⟨S384, .f32⟩
  | .hbm, ⟨10, _⟩ => ⟨S8x2048x128, .f32⟩
  | .hbm, ⟨11, _⟩ => ⟨S1x1x128, .f32⟩
  | .hbm, ⟨12, _⟩ => ⟨S8x2048x128, .f32⟩
  | .hbm, ⟨13, _⟩ => ⟨S8x2048x128, .f32⟩
  | .hbm, ⟨14, _⟩ => ⟨S_, .f32⟩
  | .hbm, ⟨15, _⟩ => ⟨S8x2048x128, .f32⟩
  | .hbm, ⟨16, _⟩ => ⟨S8x2048x128, .f32⟩
  | .hbm, ⟨17, _⟩ => ⟨S8x2048x128, .f32⟩
  | .hbm, ⟨18, _⟩ => ⟨S1x1x128, .f32⟩
  | .hbm, ⟨19, _⟩ => ⟨S8x2048x128, .f32⟩
  | .hbm, ⟨20, _⟩ => ⟨S8x2048x128, .f32⟩
  | .hbm, ⟨21, _⟩ => ⟨S_, .f32⟩
  | .hbm, ⟨22, _⟩ => ⟨S8x2048x128, .f32⟩
  | .hbm, ⟨23, _⟩ => ⟨S8x2048x128, .f32⟩
  | .hbm, ⟨24, _⟩ => ⟨S8x2048x128, .f32⟩
  | .hbm, ⟨25, _⟩ => ⟨S_, .f32⟩
  | .hbm, ⟨26, _⟩ => ⟨S8x2048x128, .f32⟩
  | .hbm, ⟨27, _⟩ => ⟨S8x2048x128, .f32⟩
  | .hbm, ⟨28, _⟩ => ⟨S8x2048x384, .f32⟩
  | .hbm, ⟨29, _⟩ => ⟨S1x1x384, .f32⟩
  | .hbm, ⟨30, _⟩ => ⟨S8x2048x384, .f32⟩
  | .hbm, ⟨31, _⟩ => ⟨S8x2048x384, .f32⟩
  | .hbm, ⟨32, _⟩ => ⟨S8x2048x384, .f32⟩
  | .hbm, ⟨33, _⟩ => ⟨S1x1x384, .f32⟩
  | .hbm, ⟨34, _⟩ => ⟨S8x2048x384, .f32⟩
  | .hbm, ⟨35, _⟩ => ⟨S8x2048x384, .f32⟩
  | .hbm, ⟨36, _⟩ => ⟨S8x2048x128, .f32⟩
  | .hbm, ⟨37, _⟩ => ⟨S8x2048x128, .f32⟩
  | .hbm, ⟨38, _⟩ => ⟨S8x2048x128, .f32⟩
  | .hbm, ⟨39, _⟩ => ⟨S8x2048x128, .f32⟩
  | .hbm, ⟨40, _⟩ => ⟨S8x2048x128, .f32⟩
  | .hbm, ⟨41, _⟩ => ⟨S8x2048x128, .f32⟩
  | .hbm, ⟨42, _⟩ => ⟨S8x2048x128, .f32⟩
  | .hbm, ⟨43, _⟩ => ⟨S8x2048x128, .f32⟩
  | .hbm, ⟨44, _⟩ => ⟨S8x2048x128, .f32⟩
  | .hbm, ⟨45, _⟩ => ⟨S_, .f32⟩
  | .hbm, ⟨46, _⟩ => ⟨S8x2048x128, .f32⟩
  | .hbm, ⟨47, _⟩ => ⟨S8x2048x128, .f32⟩
  | .hbm, ⟨48, _⟩ => ⟨S_, .f32⟩
  | .hbm, ⟨49, _⟩ => ⟨S8x2048x128, .f32⟩
  | .hbm, ⟨50, _⟩ => ⟨S8x2048x128, .f32⟩
  | .hbm, ⟨51, _⟩ => ⟨S8x2048x128, .f32⟩
  | .hbm, ⟨52, _⟩ => ⟨S8x2048x128, .f32⟩
  | .hbm, ⟨53, _⟩ => ⟨S8x2048x128, .f32⟩
  | .hbm, ⟨54, _⟩ => ⟨S_, .f32⟩
  | .hbm, ⟨55, _⟩ => ⟨S8x2048x128, .f32⟩
  | .hbm, ⟨56, _⟩ => ⟨S8x2048x128, .f32⟩
  | .hbm, ⟨57, _⟩ => ⟨S_, .f32⟩
  | .hbm, ⟨58, _⟩ => ⟨S8x2048x128, .f32⟩
  | .hbm, ⟨59, _⟩ => ⟨S8x2048x128, .f32⟩
  | .hbm, ⟨60, _⟩ => ⟨S8x2048x128, .f32⟩
  | .hbm, ⟨61, _⟩ => ⟨S8x2048x128, .f32⟩
  | .hbm, ⟨62, _⟩ => ⟨S8x2048x128, .f32⟩
  | .hbm, ⟨63, _⟩ => ⟨S_, .f32⟩
  | .hbm, ⟨64, _⟩ => ⟨S8x2048x128, .f32⟩
  | .hbm, ⟨65, _⟩ => ⟨S8x2048x128, .f32⟩
  | .hbm, ⟨66, _⟩ => ⟨S8x2048x128, .f32⟩
  | .hbm, ⟨67, _⟩ => ⟨S8x2048x128, .f32⟩
  | .hbm, ⟨68, _⟩ => ⟨S8x2048x128, .f32⟩
  | _, _ => ⟨S8x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_cst : Ref sig .tc := ⟨.hbm, 14, rfl⟩
abbrev main_call0_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_call1_cst : Ref sig .tc := ⟨.hbm, 21, rfl⟩
abbrev main_call1_v0 : Ref sig .tc := ⟨.hbm, 22, rfl⟩
abbrev main_v9 : Ref sig .tc := ⟨.hbm, 23, rfl⟩
abbrev main_v10 : Ref sig .tc := ⟨.hbm, 24, rfl⟩
abbrev main_call2_cst : Ref sig .tc := ⟨.hbm, 25, rfl⟩
abbrev main_call2_v0 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst : Ref sig .tc := ⟨.hbm, 45, rfl⟩
abbrev main_v29 : Ref sig .tc := ⟨.hbm, 46, rfl⟩
abbrev main_v30 : Ref sig .tc := ⟨.hbm, 47, rfl⟩
abbrev main_cst_0 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_1 : Ref sig .tc := ⟨.hbm, 54, rfl⟩
abbrev main_v36 : Ref sig .tc := ⟨.hbm, 55, rfl⟩
abbrev main_v37 : Ref sig .tc := ⟨.hbm, 56, rfl⟩
abbrev main_cst_2 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_3 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩

abbrev nD : Nat := 1
abbrev τ : Topo := Topo.v7x

variable {F : FTy → Type} [FloatOps F]

class Facts₀ : Prop where
  bcast_S128_S1x1x128_2 : S128.BroadcastsInDim S1x1x128 (![2] : Fin 1 → Fin S1x1x128.rank)
  bcast_S1x1x128_S8x2048x128_0_1_2 : S1x1x128.BroadcastsInDim S8x2048x128 (![0, 1, 2] : Fin 3 → Fin S8x2048x128.rank)
  bcast_S_S8x2048x128 : S_.BroadcastsInDim S8x2048x128 (![] : Fin 0 → Fin S8x2048x128.rank)
  bcast_S384_S1x1x384_2 : S384.BroadcastsInDim S1x1x384 (![2] : Fin 1 → Fin S1x1x384.rank)
  bcast_S1x1x384_S8x2048x384_0_1_2 : S1x1x384.BroadcastsInDim S8x2048x384 (![0, 1, 2] : Fin 3 → Fin S8x2048x384.rank)
  slices_S8x2048x384_S8x2048x128_0_0_0 : S8x2048x384.Slices ![0, 0, 0] S8x2048x128
  slices_S8x2048x384_S8x2048x128_0_0_128 : S8x2048x384.Slices ![0, 0, 128] S8x2048x128
  slices_S8x2048x384_S8x2048x128_0_0_256 : S8x2048x384.Slices ![0, 0, 256] S8x2048x128
  dot_S8x2048x128_S128x128_S8x2048x128_2_1_01_0_n_n_wf : DotDims.WF S8x2048x128 S128x128 S8x2048x128 [2] [1] [0, 1] [0] [] []
  dot_S8x2048x2048_S8x2048x128_S8x2048x128_2_1_1_2_0_0_wf : DotDims.WF S8x2048x2048 S8x2048x128 S8x2048x128 [2] [1] [1] [2] [0] [0]
  dot_S8x2048x128_S384x128_S8x2048x384_2_1_01_0_n_n_wf : DotDims.WF S8x2048x128 S384x128 S8x2048x384 [2] [1] [0, 1] [0] [] []

variable [Facts₀]

def dot_S8x2048x128_S128x128_S8x2048x128_2_1_01_0_n_n : DotDims S8x2048x128 S128x128 S8x2048x128 where
  lhsContracting := [2]
  rhsContracting := [1]
  lhsNonContracting := [0, 1]
  rhsNonContracting := [0]
  lhsBatch := []
  rhsBatch := []
  wf := dot_S8x2048x128_S128x128_S8x2048x128_2_1_01_0_n_n_wf
def dot_S8x2048x2048_S8x2048x128_S8x2048x128_2_1_1_2_0_0 : DotDims S8x2048x2048 S8x2048x128 S8x2048x128 where
  lhsContracting := [2]
  rhsContracting := [1]
  lhsNonContracting := [1]
  rhsNonContracting := [2]
  lhsBatch := [0]
  rhsBatch := [0]
  wf := dot_S8x2048x2048_S8x2048x128_S8x2048x128_2_1_1_2_0_0_wf
def dot_S8x2048x128_S384x128_S8x2048x384_2_1_01_0_n_n : DotDims S8x2048x128 S384x128 S8x2048x384 where
  lhsContracting := [2]
  rhsContracting := [1]
  lhsNonContracting := [0, 1]
  rhsNonContracting := [0]
  lhsBatch := []
  rhsBatch := []
  wf := dot_S8x2048x128_S384x128_S8x2048x384_2_1_01_0_n_n_wf

class Facts : Prop extends Facts₀ where

variable [Facts]
-- ==== Proof.Pieces.lean ====
/-
  What the body leaves behind at one grid point, as values.

  A point of the grid is a pair (graph, tile of 512 nodes).  At a graph's first tile the body first forms the messages of
  all 2048 nodes from the graph's feature block and stores them in a scratch buffer; at every tile it then reads the
  scratch back, and stores the output block computed from the adjacency tile, the tile's own feature rows (cut out of the
  graph's feature block at row 512·tile) and the gate parameters.  So the scratch after a first tile holds the messages
  of that tile's feature block, and is left untouched by the later tiles; the output block is the same function of the
  loaded blocks and of the messages in both cases.  The loads read whole buffers (or, for the tile's rows, one
  rectangle of the feature block), and each buffer is stored whole, once.
-/
import proofs.«175723_j66872640798743_2_alg».proof.Proof.Gen.KernelIdeal.Frame
import Idealize.ShloMosaic.Lib.Pipeline.Value
import Idealize.ShloMosaic.Lib.Tactic

noncomputable section

namespace Cert.KernelIdeal.Piece

open Cert.KernelIdeal Cert.KernelIdeal.Gen Idealize.ShloMosaic Idealize.ShloMosaic.TcCoe Idealize.SL.Sem Idealize.ShloMosaic.Tactic

variable {F : FTy → Type} [FloatOps F]

/-- Two, and three, zero offsets. -/
theorem hz2 : (![0, 0] : Fin 2 → Nat) = fun _ => 0 := funext fun a => by fin_cases a <;> rfl
theorem hz3 : (![0, 0, 0] : Fin 3 → Nat) = fun _ => 0 := funext fun a => by fin_cases a <;> rfl

/-- The tile of 512 node rows the body reads out of the graph's whole feature block: rows `512·i₁ …` of it. -/
def tile (i : grid0.Coords) (x1 : Vec F S1x2048x128 .f32) : Vec F S1x512x128 .f32 :=
  View.ld x1 (Rect.unit (s := S1x2048x128) (k0_off1 i) S1x512x128.size (k0_off1_inb i))

/-- What a point stores into the output block, from the adjacency tile `x0`, the feature block `x1`, the messages `ms`
    the scratch holds, and the gate weights and biases. -/
def stored (i : grid0.Coords) (x0 : Vec F S1x512x2048 .f32) (x1 : Vec F S1x2048x128 .f32) (ms : Vec F S2048x128 .bf16)
    (x6 x7 : Vec F S128x384 .f32) (x8 x9 : Vec F S1x384 .f32) : Vec F S1x512x128 .f32 :=
  k0_pay1 (k0_pay3 (tile i x1)) (k0_pay4 x0 ms x6 x8) (k0_pay5 (tile i x1) x7 x9) (k0_pay6 x0 ms x6 x8)
    (k0_pay7 x0 ms x6 x8)

/-- At a graph's first tile the scratch is left holding the messages of the graph's feature block. -/
theorem scratch_first (c : Dev nD) (i : grid0.Coords) (arg2 : Memref sig .tc .vmem S1x512x2048 .f32) (harg2 : arg2.IsWhole) (arg3 : Memref sig .tc .vmem S1x2048x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x384 .f32) (harg8 : arg8.IsWhole) (arg9 : Memref sig .tc .vmem S128x384 .f32) (harg9 : arg9.IsWhole) (arg10 : Memref sig .tc .vmem S1x384 .f32) (harg10 : arg10.IsWhole) (arg11 : Memref sig .tc .vmem S1x384 .f32) (harg11 : arg11.IsWhole) (arg12 : Memref sig .tc .vmem S1x512x128 .f32) (harg12 : arg12.IsWhole) (arg13 : Memref sig .tc .vmem S2048x128 .bf16) (harg13 : arg13.IsWhole) (hc0 : cond0_0 i)
    (x0 : Vec F S1x512x2048 .f32) (x1 : Vec F S1x2048x128 .f32) (x2 : Vec F S128x128 .f32) (x3 : Vec F S1x128 .f32) (x4 : Vec F S128x128 .f32) (x5 : Vec F S1x128 .f32) (x6 : Vec F S128x384 .f32) (x7 : Vec F S128x384 .f32) (x8 : Vec F S1x384 .f32) (x9 : Vec F S1x384 .f32) :
    sout0_A_0 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 = k0_pay2 x1 x2 x3 x4 x5 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9)]
  unfold kernelRun0_A
  dsimp only
  sl_unfold_run_names
  rw [View.canon_unit_zero hz2]
  simp only [View.readAt_eq_ld, harg3.read_unread, harg4.read_unread, harg5.read_unread, harg6.read_unread, harg7.read_unread,
    View.ld_unit_zero (S := S1x2048x128) hz3, View.ld_unit_zero (S := S128x128) hz2, View.ld_unit_zero (S := S1x128) hz2]

/-- At a graph's first tile the output block is stored from the messages just formed. -/
theorem out_first (c : Dev nD) (i : grid0.Coords) (arg2 : Memref sig .tc .vmem S1x512x2048 .f32) (harg2 : arg2.IsWhole) (arg3 : Memref sig .tc .vmem S1x2048x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x384 .f32) (harg8 : arg8.IsWhole) (arg9 : Memref sig .tc .vmem S128x384 .f32) (harg9 : arg9.IsWhole) (arg10 : Memref sig .tc .vmem S1x384 .f32) (harg10 : arg10.IsWhole) (arg11 : Memref sig .tc .vmem S1x384 .f32) (harg11 : arg11.IsWhole) (arg12 : Memref sig .tc .vmem S1x512x128 .f32) (harg12 : arg12.IsWhole) (arg13 : Memref sig .tc .vmem S2048x128 .bf16) (harg13 : arg13.IsWhole) (hc0 : cond0_0 i)
    (x0 : Vec F S1x512x2048 .f32) (x1 : Vec F S1x2048x128 .f32) (x2 : Vec F S128x128 .f32) (x3 : Vec F S1x128 .f32) (x4 : Vec F S128x128 .f32) (x5 : Vec F S1x128 .f32) (x6 : Vec F S128x384 .f32) (x7 : Vec F S128x384 .f32) (x8 : Vec F S1x384 .f32) (x9 : Vec F S1x384 .f32) :
    out0_A_10 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 = stored i x0 x1 (k0_pay2 x1 x2 x3 x4 x5) x6 x7 x8 x9 := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9)]
  unfold kernelRun0_A
  dsimp only
  sl_unfold_run_names
  rw [View.canon_unit_zero hz3, View.readCov_unit_zero (S := S2048x128) _ hz2]
  simp only [View.readAt_eq_ld, harg2.read_unread, harg3.read_unread, harg4.read_unread, harg5.read_unread, harg6.read_unread,
    harg7.read_unread, harg8.read_unread, harg9.read_unread, harg10.read_unread, harg11.read_unread,
    View.ld_unit_zero (S := S1x2048x128) hz3, View.ld_unit_zero (S := S1x512x2048) hz3, View.ld_unit_zero (S := S128x128) hz2,
    View.ld_unit_zero (S := S1x128) hz2, View.ld_unit_zero (S := S128x384) hz2, View.ld_unit_zero (S := S1x384) hz2]
  rfl

/-- At a later tile the output block is stored from the messages the scratch still holds. -/
theorem out_later (c : Dev nD) (i : grid0.Coords) (arg2 : Memref sig .tc .vmem S1x512x2048 .f32) (harg2 : arg2.IsWhole) (arg3 : Memref sig .tc .vmem S1x2048x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x384 .f32) (harg8 : arg8.IsWhole) (arg9 : Memref sig .tc .vmem S128x384 .f32) (harg9 : arg9.IsWhole) (arg10 : Memref sig .tc .vmem S1x384 .f32) (harg10 : arg10.IsWhole) (arg11 : Memref sig .tc .vmem S1x384 .f32) (harg11 : arg11.IsWhole) (arg12 : Memref sig .tc .vmem S1x512x128 .f32) (harg12 : arg12.IsWhole) (arg13 : Memref sig .tc .vmem S2048x128 .bf16) (harg13 : arg13.IsWhole) (hc0 : ¬cond0_0 i)
    (x0 : Vec F S1x512x2048 .f32) (x1 : Vec F S1x2048x128 .f32) (x2 : Vec F S128x128 .f32) (x3 : Vec F S1x128 .f32) (x4 : Vec F S128x128 .f32) (x5 : Vec F S1x128 .f32) (x6 : Vec F S128x384 .f32) (x7 : Vec F S128x384 .f32) (x8 : Vec F S1x384 .f32) (x9 : Vec F S1x384 .f32) (xs0 : Vec F S2048x128 .bf16) :
    out0_B_10 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 xs0 = stored i x0 x1 xs0 x6 x7 x8 x9 := by
  unfold out0_B_10
  rw [View.read_writes_eq_canon _ _ _ (cover0_B_10 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 xs0)]
  unfold kernelRun0_B
  dsimp only
  sl_unfold_run_names
  rw [View.canon_unit_zero hz3]
  simp only [View.readAt_eq_ld, harg2.read_unread, harg3.read_unread, harg8.read_unread, harg9.read_unread,
    harg10.read_unread, harg11.read_unread, harg13.read_unread,
    View.ld_unit_zero (S := S1x512x2048) hz3, View.ld_unit_zero (S := S2048x128) hz2,
    View.ld_unit_zero (S := S128x384) hz2, View.ld_unit_zero (S := S1x384) hz2]
  rfl

end Cert.KernelIdeal.Piece
end
-- ==== Proof.Tiles.lean ====
/-
  The scratch and the output buffer after every grid point.

  The 32 points run in order: graph by graph, and within a graph its four tiles of 512 nodes.  Only a graph's first tile
  writes the scratch, so by induction along the points the scratch after a point holds the messages of the graph the point
  belongs to (the graph whose first tile is the point at position 4·⌊position / 4⌋), and hence every point stores its
  output block from its own adjacency tile and feature rows and from the messages of its own graph.
-/
import proofs.«175723_j66872640798743_2_alg».proof.Proof.Pieces

noncomputable section

namespace Cert.KernelIdeal.Tiles

open Cert.KernelIdeal Cert.KernelIdeal.Gen Cert.KernelIdeal.Piece Idealize.ShloMosaic Idealize.ShloMosaic.TcCoe Idealize.SL.Sem

variable {F : FTy → Type} [FloatOps F]
variable (m : (ℓ : Loc nD τ sig) → Buf (Elt F) ℓ)

/-- The messages of the graph whose first tile is the point `t₀`: formed from that point's feature block and the two
    layers' parameters. -/
def msgsAt (c : Dev nD) (t₀ : Fin cfg0.N) : Vec F S2048x128 .bf16 :=
  k0_pay2 (iblk m c 1 t₀) (iblk m c 2 t₀) (iblk m c 3 t₀) (iblk m c 4 t₀) (iblk m c 5 t₀)

/-- After any point the scratch holds the messages of the graph the point belongs to: they are stored at the graph's
    first tile (the points whose position is a multiple of 4) and kept by the three tiles that follow. -/
theorem scratch_eq (c : Dev nD) : ∀ (n : ℕ) (hn : n < cfg0.N) (t₀ : Fin cfg0.N), t₀.val = 4 * (n / 4) →
    (outsAt0 m c n hn).2 = msgsAt m c t₀
  | 0, hn, t₀, h0 => by
    obtain rfl : t₀ = ⟨0, hn⟩ := Fin.ext (by rw [h0])
    rw [outsAt0_A m c ⟨0, hn⟩ rfl]
    dsimp only
    unfold msgsAt
    exact scratch_first c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) ((hcond0_0 ⟨0, hn⟩).mpr rfl) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩)
  | n + 1, hn, t₀, h0 => by
    have hN : cfg0.N = 32 := N_0
    by_cases hA : (n + 1) % 4 = 0
    · obtain rfl : t₀ = ⟨n + 1, hn⟩ := Fin.ext (by rw [h0]; show 4 * ((n + 1) / 4) = n + 1; omega)
      rw [outsAt0_A m c ⟨n + 1, hn⟩ hA]
      dsimp only
      unfold msgsAt
      exact scratch_first c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) ((hcond0_0 ⟨n + 1, hn⟩).mpr hA) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩)
    · rw [outsAt0_B m c ⟨n + 1, hn⟩ hA]
      dsimp only
      unfold sout0_B_0
      exact scratch_eq c n _ t₀ (by rw [h0]; omega)

/-- What the output's staging buffer holds after the point `t`: the block stored from the point's adjacency tile and
    feature block, the messages of its graph, and the gate parameters. -/
theorem out_eq (c : Dev nD) (t t₀ : Fin cfg0.N) (h0 : t₀.val = 4 * (t.val / 4)) :
    (outsAt0 m c t.val t.isLt).1
      = stored (grid0.coords t) (iblk m c 0 t) (iblk m c 1 t) (msgsAt m c t₀) (iblk m c 6 t) (iblk m c 7 t) (iblk m c 8 t)
          (iblk m c 9 t) := by
  have hN : cfg0.N = 32 := N_0
  have ht : t.val < 32 := lt_of_lt_of_eq t.isLt hN
  by_cases hA : t.val % 4 = 0
  · obtain rfl : t₀ = t := Fin.ext (by rw [h0]; omega)
    rw [outsAt0_A m c t₀ hA]
    dsimp only
    unfold msgsAt
    exact out_first c (grid0.coords t₀) (ms0_0 t₀) (hs0_0 t₀) (ms0_1 t₀) (hs0_1 t₀) (ms0_2 t₀) (hs0_2 t₀) (ms0_3 t₀) (hs0_3 t₀) (ms0_4 t₀) (hs0_4 t₀) (ms0_5 t₀) (hs0_5 t₀) (ms0_6 t₀) (hs0_6 t₀) (ms0_7 t₀) (hs0_7 t₀) (ms0_8 t₀) (hs0_8 t₀) (ms0_9 t₀) (hs0_9 t₀) (ms0_10 t₀) (hs0_10 t₀) scM0_0 (Memref.isWhole_whole _) ((hcond0_0 t₀).mpr hA) (iblk m c 0 t₀) (iblk m c 1 t₀) (iblk m c 2 t₀) (iblk m c 3 t₀) (iblk m c 4 t₀) (iblk m c 5 t₀) (iblk m c 6 t₀) (iblk m c 7 t₀) (iblk m c 8 t₀) (iblk m c 9 t₀)
  · rw [outsAt0_B m c t hA]
    dsimp only
    rw [scratch_eq m c (t.val - 1) _ t₀ (by rw [h0]; omega)]
    exact out_later c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => hA ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (msgsAt m c t₀)

end Cert.KernelIdeal.Tiles
end
-- ==== Proof.Blocks.lean ====
/-
  What the windows' blocks read of the arrays.

  The grid's 32 points are the pairs (graph, tile of 512 nodes), graph by graph.  At the point in position `t` the graph
  is `t / 4` and the tile `t % 4`: the adjacency window's block holds rows `512·(t % 4) …` of graph `t / 4`, the feature
  window's block the whole feature array of graph `t / 4`, out of which the body cuts the tile's rows, and each of the
  eight parameter windows has one block, its whole array.
-/
import proofs.«175723_j66872640798743_2_alg».proof.Proof.Pieces
import Idealize.ShloMosaic.Lib.ValueIdx

noncomputable section

namespace Cert.KernelIdeal.Blocks

open Cert.KernelIdeal Cert.KernelIdeal.Gen Cert.KernelIdeal.Piece Idealize.ShloMosaic Idealize.ShloMosaic.TcCoe Idealize.SL.Sem
open Idealize.ShloMosaic.ValueIdx

variable {F : FTy → Type} [FloatOps F]
variable (m : (ℓ : Loc nD τ sig) → Buf (Elt F) ℓ)

/-- The printed index maps, decided once over the 32 points: the adjacency and output windows move with (graph, tile),
    the feature window with the graph alone, and the tile's rows start at row 512·tile of the feature block. -/
theorem idx_moving : ∀ t : Fin cfg0.N,
    win0_0.index t (0 : Fin 3) = t.val / 4 ∧ win0_0.index t (1 : Fin 3) = t.val % 4 ∧ win0_0.index t (2 : Fin 3) = 0
    ∧ win0_1.index t (0 : Fin 3) = t.val / 4 ∧ win0_1.index t (1 : Fin 3) = 0 ∧ win0_1.index t (2 : Fin 3) = 0
    ∧ win0_10.index t (0 : Fin 3) = t.val / 4 ∧ win0_10.index t (1 : Fin 3) = t.val % 4 ∧ win0_10.index t (2 : Fin 3) = 0
    ∧ k0_off1 (grid0.coords t) (0 : Fin 3) = 0 ∧ k0_off1 (grid0.coords t) (1 : Fin 3) = 512 * (t.val % 4)
    ∧ k0_off1 (grid0.coords t) (2 : Fin 3) = 0 :=
  (by decide +kernel : ∀ t : Fin grid0.N, _)

/-- The parameter windows never move. -/
theorem idx_whole : ∀ t : Fin cfg0.N,
    (win0_2.index t (0 : Fin 2) = 0 ∧ win0_2.index t (1 : Fin 2) = 0) ∧ (win0_3.index t (0 : Fin 2) = 0 ∧ win0_3.index t (1 : Fin 2) = 0)
    ∧ (win0_4.index t (0 : Fin 2) = 0 ∧ win0_4.index t (1 : Fin 2) = 0) ∧ (win0_5.index t (0 : Fin 2) = 0 ∧ win0_5.index t (1 : Fin 2) = 0)
    ∧ (win0_6.index t (0 : Fin 2) = 0 ∧ win0_6.index t (1 : Fin 2) = 0) ∧ (win0_7.index t (0 : Fin 2) = 0 ∧ win0_7.index t (1 : Fin 2) = 0)
    ∧ (win0_8.index t (0 : Fin 2) = 0 ∧ win0_8.index t (1 : Fin 2) = 0) ∧ (win0_9.index t (0 : Fin 2) = 0 ∧ win0_9.index t (1 : Fin 2) = 0) :=
  (by decide +kernel : ∀ t : Fin grid0.N, _)

/-- Window 2's one block is its whole array. -/
theorem whole_2 (c : Dev nD) (t : Fin cfg0.N) : (iblk m c 2 t : Vec F S128x128 .f32) = V m c main_v0 := by
  obtain ⟨e0, e1⟩ := (idx_whole t).1
  funext y
  show V m c main_v0 (((cfg0.win 2).blk t).view.emb y) = V m c main_v0 y
  refine congrArg (V m c main_v0) (funext fun a => Fin.ext ?_)
  match a with
  | ⟨0, _⟩ => show win0_2.index t (0 : Fin 2) * 128 + 1 * (y 0).val = (y 0).val; omega
  | ⟨1, _⟩ => show win0_2.index t (1 : Fin 2) * 128 + 1 * (y 1).val = (y 1).val; omega

/-- Window 3's one block is its whole array. -/
theorem whole_3 (c : Dev nD) (t : Fin cfg0.N) : (iblk m c 3 t : Vec F S1x128 .f32) = V m c main_v4 := by
  obtain ⟨e0, e1⟩ := (idx_whole t).2.1
  funext y
  show V m c main_v4 (((cfg0.win 3).blk t).view.emb y) = V m c main_v4 y
  refine congrArg (V m c main_v4) (funext fun a => Fin.ext ?_)
  match a with
  | ⟨0, _⟩ => show win0_3.index t (0 : Fin 2) * 1 + 1 * (y 0).val = (y 0).val; omega
  | ⟨1, _⟩ => show win0_3.index t (1 : Fin 2) * 128 + 1 * (y 1).val = (y 1).val; omega

/-- Window 4's one block is its whole array. -/
theorem whole_4 (c : Dev nD) (t : Fin cfg0.N) : (iblk m c 4 t : Vec F S128x128 .f32) = V m c main_v1 := by
  obtain ⟨e0, e1⟩ := (idx_whole t).2.2.1
  funext y
  show V m c main_v1 (((cfg0.win 4).blk t).view.emb y) = V m c main_v1 y
  refine congrArg (V m c main_v1) (funext fun a => Fin.ext ?_)
  match a with
  | ⟨0, _⟩ => show win0_4.index t (0 : Fin 2) * 128 + 1 * (y 0).val = (y 0).val; omega
  | ⟨1, _⟩ => show win0_4.index t (1 : Fin 2) * 128 + 1 * (y 1).val = (y 1).val; omega

/-- Window 5's one block is its whole array. -/
theorem whole_5 (c : Dev nD) (t : Fin cfg0.N) : (iblk m c 5 t : Vec F S1x128 .f32) = V m c main_v5 := by
  obtain ⟨e0, e1⟩ := (idx_whole t).2.2.2.1
  funext y
  show V m c main_v5 (((cfg0.win 5).blk t).view.emb y) = V m c main_v5 y
  refine congrArg (V m c main_v5) (funext fun a => Fin.ext ?_)
  match a with
  | ⟨0, _⟩ => show win0_5.index t (0 : Fin 2) * 1 + 1 * (y 0).val = (y 0).val; omega
  | ⟨1, _⟩ => show win0_5.index t (1 : Fin 2) * 128 + 1 * (y 1).val = (y 1).val; omega

/-- Window 6's one block is its whole array. -/
theorem whole_6 (c : Dev nD) (t : Fin cfg0.N) : (iblk m c 6 t : Vec F S128x384 .f32) = V m c main_v2 := by
  obtain ⟨e0, e1⟩ := (idx_whole t).2.2.2.2.1
  funext y
  show V m c main_v2 (((cfg0.win 6).blk t).view.emb y) = V m c main_v2 y
  refine congrArg (V m c main_v2) (funext fun a => Fin.ext ?_)
  match a with
  | ⟨0, _⟩ => show win0_6.index t (0 : Fin 2) * 128 + 1 * (y 0).val = (y 0).val; omega
  | ⟨1, _⟩ => show win0_6.index t (1 : Fin 2) * 384 + 1 * (y 1).val = (y 1).val; omega

/-- Window 7's one block is its whole array. -/
theorem whole_7 (c : Dev nD) (t : Fin cfg0.N) : (iblk m c 7 t : Vec F S128x384 .f32) = V m c main_v3 := by
  obtain ⟨e0, e1⟩ := (idx_whole t).2.2.2.2.2.1
  funext y
  show V m c main_v3 (((cfg0.win 7).blk t).view.emb y) = V m c main_v3 y
  refine congrArg (V m c main_v3) (funext fun a => Fin.ext ?_)
  match a with
  | ⟨0, _⟩ => show win0_7.index t (0 : Fin 2) * 128 + 1 * (y 0).val = (y 0).val; omega
  | ⟨1, _⟩ => show win0_7.index t (1 : Fin 2) * 384 + 1 * (y 1).val = (y 1).val; omega

/-- Window 8's one block is its whole array. -/
theorem whole_8 (c : Dev nD) (t : Fin cfg0.N) : (iblk m c 8 t : Vec F S1x384 .f32) = V m c main_v6 := by
  obtain ⟨e0, e1⟩ := (idx_whole t).2.2.2.2.2.2.1
  funext y
  show V m c main_v6 (((cfg0.win 8).blk t).view.emb y) = V m c main_v6 y
  refine congrArg (V m c main_v6) (funext fun a => Fin.ext ?_)
  match a with
  | ⟨0, _⟩ => show win0_8.index t (0 : Fin 2) * 1 + 1 * (y 0).val = (y 0).val; omega
  | ⟨1, _⟩ => show win0_8.index t (1 : Fin 2) * 384 + 1 * (y 1).val = (y 1).val; omega

/-- Window 9's one block is its whole array. -/
theorem whole_9 (c : Dev nD) (t : Fin cfg0.N) : (iblk m c 9 t : Vec F S1x384 .f32) = V m c main_v7 := by
  obtain ⟨e0, e1⟩ := (idx_whole t).2.2.2.2.2.2.2
  funext y
  show V m c main_v7 (((cfg0.win 9).blk t).view.emb y) = V m c main_v7 y
  refine congrArg (V m c main_v7) (funext fun a => Fin.ext ?_)
  match a with
  | ⟨0, _⟩ => show win0_9.index t (0 : Fin 2) * 1 + 1 * (y 0).val = (y 0).val; omega
  | ⟨1, _⟩ => show win0_9.index t (1 : Fin 2) * 384 + 1 * (y 1).val = (y 1).val; omega

/-- The adjacency block of the point `t` = (graph `b`, tile): row `r` of the block is row `512·tile + r` of graph `b`. -/
theorem adj_read (c : Dev nD) (t : Fin cfg0.N) (u : Fin 1) (r : Fin 512) (k : Fin 2048) (b : Fin 8) (n : Fin 2048)
    (hb : b.val = t.val / 4) (hn : n.val = 512 * (t.val % 4) + r.val) :
    iblk m c 0 t (ix3 u r k) = V m c main_arg1 (ix3 b n k) := by
  obtain ⟨e0, e1, e2, -⟩ := idx_moving t
  show V m c main_arg1 (((cfg0.win 0).blk t).view.emb (ix3 u r k)) = _
  refine congrArg (V m c main_arg1) (funext fun a => Fin.ext ?_)
  match a with
  | ⟨0, _⟩ => show win0_0.index t (0 : Fin 3) * 1 + 1 * u.val = b.val; omega
  | ⟨1, _⟩ => show win0_0.index t (1 : Fin 3) * 512 + 1 * r.val = n.val; omega
  | ⟨2, _⟩ => show win0_0.index t (2 : Fin 3) * 2048 + 1 * k.val = k.val; omega

/-- The feature block of the point `t` is the feature array of its graph `b`. -/
theorem feat_read (c : Dev nD) (t : Fin cfg0.N) (u : Fin 1) (n : Fin 2048) (k : Fin 128) (b : Fin 8) (hb : b.val = t.val / 4) :
    iblk m c 1 t (ix3 u n k) = V m c main_arg0 (ix3 b n k) := by
  obtain ⟨-, -, -, e0, e1, e2, -⟩ := idx_moving t
  show V m c main_arg0 (((cfg0.win 1).blk t).view.emb (ix3 u n k)) = _
  refine congrArg (V m c main_arg0) (funext fun a => Fin.ext ?_)
  match a with
  | ⟨0, _⟩ => show win0_1.index t (0 : Fin 3) * 1 + 1 * u.val = b.val; omega
  | ⟨1, _⟩ => show win0_1.index t (1 : Fin 3) * 2048 + 1 * n.val = n.val; omega
  | ⟨2, _⟩ => show win0_1.index t (2 : Fin 3) * 128 + 1 * k.val = k.val; omega

/-- The tile's rows, cut out of the point's feature block: row `r` is row `512·tile + r` of graph `b`. -/
theorem tile_read (c : Dev nD) (t : Fin cfg0.N) (u : Fin 1) (r : Fin 512) (k : Fin 128) (b : Fin 8) (n : Fin 2048)
    (hb : b.val = t.val / 4) (hn : n.val = 512 * (t.val % 4) + r.val) :
    tile (grid0.coords t) (iblk m c 1 t) (ix3 u r k) = V m c main_arg0 (ix3 b n k) := by
  obtain ⟨-, -, -, e0, e1, e2, -, -, -, o0, o1, o2⟩ := idx_moving t
  show V m c main_arg0 (((cfg0.win 1).blk t).view.emb
    ((Rect.unit (s := S1x2048x128) (k0_off1 (grid0.coords t)) S1x512x128.size (k0_off1_inb (grid0.coords t))).idx (ix3 u r k))) = _
  refine congrArg (V m c main_arg0) (funext fun a => Fin.ext ?_)
  match a with
  | ⟨0, _⟩ => show win0_1.index t (0 : Fin 3) * 1 + 1 * (k0_off1 (grid0.coords t) (0 : Fin 3) + 1 * u.val) = b.val; omega
  | ⟨1, _⟩ => show win0_1.index t (1 : Fin 3) * 2048 + 1 * (k0_off1 (grid0.coords t) (1 : Fin 3) + 1 * r.val) = n.val; omega
  | ⟨2, _⟩ => show win0_1.index t (2 : Fin 3) * 128 + 1 * (k0_off1 (grid0.coords t) (2 : Fin 3) + 1 * k.val) = k.val; omega

end Cert.KernelIdeal.Blocks
end
-- ==== Proof.Spec.lean ====
/-
  One round of message passing on a dense graph with a gated recurrent update, as functions of plain coordinates over
  the extended reals.  For one graph with node features `x n` (rows of length 128) and adjacency rows `adj n`:

    message n   = relu (W₂ · relu (W₁ · x n + b₁) + b₂)                      (two affine layers, weights indexed (out, in))
    gathered n  = relu (∑ₖ adj n k · message k)                              (the adjacency row against every node's message)
    update n    = (1 − z) · c + z · x n                                       (the gated recurrent cell, gate order r, z, c)
      with gx = W_ih · gathered n + b_ih,  gh = W_hh · x n + b_hh  (rows of length 3·128, split in three blocks),
           r = σ (gx₀ + gh₀),  z = σ (gx₁ + gh₁),  c = tanh (gx₂ + r · gh₂),  σ t = 1 / (1 + e⁻ᵗ).

  Nothing here mentions a program: both programs are shown to compute `update`.
-/
import Idealize.ShloMosaic.PureOps.Ideal
import Idealize.ShloMosaic.PureOps.Ideal.Laws

noncomputable section

namespace Cert.GatedMessagePassing

open Idealize.ShloMosaic

/-- The words of `0.0` and `1.0`, read as extended reals. -/
abbrev zero : EReal := Ideal.ofBits .f32 0x00000000#32
abbrev one : EReal := Ideal.ofBits .f32 0x3F800000#32

/-- The word of `1.0` is the number one. -/
theorem one_eq : one = 1 := by
  show Ideal.ofBits .f32 0x3F800000#32 = 1
  simp [Ideal.ofBits, Ideal.ieee, -EReal.coe_mul]; norm_num

variable {K M : ℕ}

/-- An affine map at output coordinate `j`: the weights are indexed (output, input). -/
def affine (x : Fin K → EReal) (w : Fin M → Fin K → EReal) (b : Fin M → EReal) (j : Fin M) : EReal :=
  (∑ k : Fin K, x k * w j k) + b j

/-- The positive part, against the word of `0.0`. -/
def relu (x : EReal) : EReal := max x zero

/-- A node's message from its feature row: two affine layers, each followed by the positive part. -/
def message (x : Fin 128 → EReal) (W1 : Fin 128 → Fin 128 → EReal) (b1 : Fin 128 → EReal)
    (W2 : Fin 128 → Fin 128 → EReal) (b2 : Fin 128 → EReal) (j : Fin 128) : EReal :=
  relu (affine (fun k => relu (affine x W1 b1 k)) W2 b2 j)

/-- What a node gathers: its adjacency row against every node's message, then the positive part. -/
def gathered (adj : Fin 2048 → EReal) (msgs : Fin 2048 → Fin 128 → EReal) (j : Fin 128) : EReal :=
  relu (∑ k : Fin 2048, adj k * msgs k j)

/-- Column `j` of the first, second and third block of a row of length 3·128. -/
def blk0 (j : Fin 128) : Fin 384 := ⟨j.val, by have := j.isLt; omega⟩
def blk1 (j : Fin 128) : Fin 384 := ⟨128 + j.val, by have := j.isLt; omega⟩
def blk2 (j : Fin 128) : Fin 384 := ⟨256 + j.val, by have := j.isLt; omega⟩

/-- The gated recurrent cell at coordinate `j`: input row `inp`, state row `st`. -/
def cell (inp st : Fin 128 → EReal) (Wih Whh : Fin 384 → Fin 128 → EReal) (bih bhh : Fin 384 → EReal)
    (j : Fin 128) : EReal :=
  (one - Ideal.logistic (affine inp Wih bih (blk1 j) + affine st Whh bhh (blk1 j)))
      * Ideal.tanh (affine inp Wih bih (blk2 j)
          + Ideal.logistic (affine inp Wih bih (blk0 j) + affine st Whh bhh (blk0 j)) * affine st Whh bhh (blk2 j))
    + Ideal.logistic (affine inp Wih bih (blk1 j) + affine st Whh bhh (blk1 j)) * st j

/-- The whole round for node `n` of one graph, at coordinate `j`. -/
def update (x : Fin 2048 → Fin 128 → EReal) (adj : Fin 2048 → Fin 2048 → EReal)
    (W1 : Fin 128 → Fin 128 → EReal) (b1 : Fin 128 → EReal) (W2 : Fin 128 → Fin 128 → EReal) (b2 : Fin 128 → EReal)
    (Wih Whh : Fin 384 → Fin 128 → EReal) (bih bhh : Fin 384 → EReal) (n : Fin 2048) (j : Fin 128) : EReal :=
  cell (gathered (adj n) fun k => message (x k) W1 b1 W2 b2) (x n) Wih Whh bih bhh j

end Cert.GatedMessagePassing

end
-- ==== Proof.LibRowMax.lean ====
/-
  Reading a "subtract the column maximum" expression over a matrix at an index given by its coordinates, for any
  extents a × b.

  * The index over the column coordinate `q` with row coordinate `k` inserted on the first axis is `(k, q)`; hence, on
    the extended reals, a vector maximum along the FIRST axis of an `[a, b]` matrix is the fold of `max` over the row
    coordinate, and the host's maximum along the first axis is the same fold from its initial value; the vector maxima
    kept as a row `[1, b]` and broadcast down the rows again read the column's maximum at every row.
  * The host's keepdims forms: a `[b]` vector placed as the one row of `[1, b]`, that row broadcast down `a` rows, and
    a column `[a, 1]` broadcast across `b` columns.
  * A plain matrix product `[a, k] × [k, b] → [a, b]` (the left operand's last axis contracted with the right
    operand's first): its sum over the contraction index is the sum over `e : Fin k` of `lhs (i, e) * rhs (e, j)`, for
    the vector unit's product into a zero accumulator and for the host's.
-/
import Idealize.ShloMosaic.Lib.ValueLayout
import Idealize.ShloMosaic.Lib.Pipeline.Value
import Idealize.ShloMosaic.PureOps.Ideal.Laws

noncomputable section

namespace Cert.LibRowMax

open Idealize.ShloMosaic Idealize.ShloMosaic.ValueIdx

variable {α : Type} {a b : ℕ}

/-! ## The maximum along the first axis -/

/-- Over the column coordinate `q`, with `k` inserted on the first axis: `(k, q)`. -/
theorem lift_first (h : (⟨2, ![a, b]⟩ : Shape).Reduces [0] ⟨1, ![b]⟩) (q : Fin b) (k : Fin a) :
    h.lift (ix1 q) k = ix2 k q := by
  funext ax
  apply Fin.ext
  match ax with
  | ⟨0, _⟩ => rfl
  | ⟨1, _⟩ => rfl

variable {φ : FTy}

/-- A vector maximum along the first axis, at column `q`: the fold of `max` from the accumulator's value over the rows. -/
theorem multiReduction_max_first (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (q : Fin b) :
    multiReduction .maximumf [0] ⟨1, ![b]⟩ src acc h hφ hacc (ix1 q)
      = (Finset.univ : Finset (Fin a)).fold max (Ideal.ofBits φ acc) fun k => src (ix2 k q) := by
  refine (Ideal.multiReduction_maximumf_single src acc h hφ hacc (ix1 q)).trans ?_
  refine congrArg (Finset.fold max (Ideal.ofBits φ acc) · Finset.univ) (funext fun k => ?_)
  exact congrArg src (lift_first h q k)

/-- The host's maximum along the first axis, at column `q`: the fold of `max` from the initial value over the rows. -/
theorem hostReduce_max_first {u : Shape} (x : (⟨2, ![a, b]⟩ : Shape).Idx → Ideal φ) (init : u.Idx → Ideal φ)
    (h' : (⟨2, ![a, b]⟩ : Shape).ReducesTo [0] ⟨1, ![b]⟩) (h : (⟨2, ![a, b]⟩ : Shape).Reduces [0] ⟨1, ![b]⟩)
    (hu : 0 < u.numel) (q : Fin b) :
    Host.reduce (FloatOps.maximumf (F := Ideal) (φ := φ)) x init h' hu (ix1 q)
      = (Finset.univ : Finset (Fin a)).fold max (init (Shape.Idx.first hu)) fun k => x (ix2 k q) := by
  refine (Host.reduce_eq_fold_single (FloatOps.maximumf (F := Ideal) (φ := φ)) x init h' h hu (ix1 q)).trans ?_
  refine congrArg (Finset.fold max (init (Shape.Idx.first hu)) · Finset.univ) (funext fun k => ?_)
  exact congrArg x (lift_first h q k)

/-- The column maxima kept as one row `[1, b]` and broadcast down `a` rows again read, at `(p, q)`, the maximum of
    column `q`. -/
theorem colMax_broadcastTo_apply (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (hc : (⟨1, ![b]⟩ : Shape).ShapeCasts ⟨2, ![1, b]⟩) (hb : (⟨2, ![1, b]⟩ : Shape).Broadcasts ⟨2, ![a, b]⟩)
    (p : Fin a) (q : Fin b) :
    broadcastTo ⟨2, ![a, b]⟩ (shapeCast ⟨2, ![1, b]⟩ (multiReduction .maximumf [0] ⟨1, ![b]⟩ src acc h hφ hacc) hc) hb (ix2 p q)
      = (Finset.univ : Finset (Fin a)).fold max (Ideal.ofBits φ acc) fun k => src (ix2 k q) :=
  (broadcastTo_1b_ab_apply _ hb p q).trans
    ((shapeCast_a_1a_apply _ hc (0 : Fin 1) q).trans (multiReduction_max_first src acc h hφ hacc q))

/-! ## The host's keepdims forms -/

/-- A `[b]` vector placed as the row of `[1, b]` reads, at `(u, q)`, the vector at `q`. -/
theorem broadcastInDim_b_1b_apply (x : (⟨1, ![b]⟩ : Shape).Idx → α)
    (h : (⟨1, ![b]⟩ : Shape).BroadcastsInDim ⟨2, ![1, b]⟩ ![1]) (u : Fin 1) (q : Fin b) :
    broadcastInDim ⟨2, ![1, b]⟩ ![1] h x (ix2 u q) = x (ix1 q) := by
  refine broadcastInDim_apply _ h x (ix2 u q) (ix1 q) fun ax => ?_
  match ax with
  | ⟨0, _⟩ =>
    show q.val = if b = 1 then 0 else q.val
    split
    · have := q.isLt; omega
    · rfl

/-- A `[1, b]` row broadcast down `a` rows reads, at `(p, q)`, the row at `q`. -/
theorem broadcastInDim_1b_ab_apply (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply _ h v (ix2 p q) (ix2 (0 : Fin 1) q) fun ax => ?_
  match ax with
  | ⟨0, _⟩ =>
    show 0 = if (1 : ℕ) = 1 then 0 else p.val
    rw [if_pos rfl]
  | ⟨1, _⟩ =>
    show q.val = if b = 1 then 0 else q.val
    split
    · have := q.isLt; omega
    · rfl

/-- An `[a, 1]` column broadcast across `b` columns reads, at `(p, q)`, the column's entry in row `p`. -/
theorem broadcastInDim_a1_ab_apply (v : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h v (ix2 p q) = v (ix2 p (0 : Fin 1)) := by
  refine broadcastInDim_apply _ h v (ix2 p q) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else q.val
    rw [if_pos rfl]

/-! ## A plain matrix product -/

variable {k : ℕ}

/-- The dimension numbers of a plain product `[a, k] × [k, b] → [a, b]`: no batch axis, the left operand's last axis
    contracted with the right operand's first. -/
abbrev plainDims (a k b : ℕ)
    (wf : DotDims.WF ⟨2, ![a, k]⟩ ⟨2, ![k, b]⟩ ⟨2, ![a, b]⟩ [1] [0] [0] [1] [] []) :
    DotDims ⟨2, ![a, k]⟩ ⟨2, ![k, b]⟩ ⟨2, ![a, b]⟩ where
  lhsContracting := [1]
  rhsContracting := [0]
  lhsNonContracting := [0]
  rhsNonContracting := [1]
  lhsBatch := []
  rhsBatch := []
  wf := wf

/-- The left operand's index at output `(i, j)` and contraction coordinate `e` is `(i, e)`. -/
theorem plain_lhsIdx (wf : DotDims.WF ⟨2, ![a, k]⟩ ⟨2, ![k, b]⟩ ⟨2, ![a, b]⟩ [1] [0] [0] [1] [] [])
    (i : Fin a) (j : Fin b) (e : Fin k) :
    (plainDims a k b wf).lhsIdx (ix2 i j) ((contrEquiv1 (plainDims a k b wf) k rfl rfl).symm e) = ix2 i e := by
  funext ax
  apply Fin.ext
  match ax with
  | ⟨0, _⟩ => rfl
  | ⟨1, _⟩ =>
    exact ((plainDims a k b wf).lhsIdx_val_of_single rfl (ix2 i j) _).trans
      (contrEquiv1_symm_val (plainDims a k b wf) k rfl rfl e)

/-- The right operand's index at output `(i, j)` and contraction coordinate `e` is `(e, j)`. -/
theorem plain_rhsIdx (wf : DotDims.WF ⟨2, ![a, k]⟩ ⟨2, ![k, b]⟩ ⟨2, ![a, b]⟩ [1] [0] [0] [1] [] [])
    (i : Fin a) (j : Fin b) (e : Fin k) :
    (plainDims a k b wf).rhsIdx (ix2 i j) ((contrEquiv1 (plainDims a k b wf) k rfl rfl).symm e) = ix2 e j := by
  funext ax
  apply Fin.ext
  match ax with
  | ⟨0, _⟩ =>
    exact ((plainDims a k b wf).rhsIdx_val_of_single rfl (ix2 i j) _).trans
      (contrEquiv1_symm_val (plainDims a k b wf) k rfl rfl e)
  | ⟨1, _⟩ => rfl

/-- The contraction's sum of products, over the contracted coordinate. -/
theorem plain_sum (wf : DotDims.WF ⟨2, ![a, k]⟩ ⟨2, ![k, b]⟩ ⟨2, ![a, b]⟩ [1] [0] [0] [1] [] [])
    (lhs : (⟨2, ![a, k]⟩ : Shape).Idx → EReal) (rhs : (⟨2, ![k, b]⟩ : Shape).Idx → EReal) (i : Fin a) (j : Fin b) :
    ∑ kk : (plainDims a k b wf).contr.Idx,
        lhs ((plainDims a k b wf).lhsIdx (ix2 i j) kk) * rhs ((plainDims a k b wf).rhsIdx (ix2 i j) kk)
      = ∑ e : Fin k, lhs (ix2 i e) * rhs (ix2 e j) := by
  rw [← Equiv.sum_comp (contrEquiv1 (plainDims a k b wf) k rfl rfl).symm]
  refine Finset.sum_congr rfl fun e _ => ?_
  rw [plain_lhsIdx wf i j e, plain_rhsIdx wf i j e]

/-- The vector unit's plain product into a zero accumulator, at `(i, j)`: the sum over `e` of `lhs (i, e) * rhs (e, j)`. -/
theorem matmul_plain_apply {φ₁ φ₂ : FTy} (wf : DotDims.WF ⟨2, ![a, k]⟩ ⟨2, ![k, b]⟩ ⟨2, ![a, b]⟩ [1] [0] [0] [1] [] [])
    (prec : Option ContractPrecision) (lhs : FVec Ideal ⟨2, ![a, k]⟩ φ₁) (rhs : FVec Ideal ⟨2, ![k, b]⟩ φ₂)
    (i : Fin a) (j : Fin b) :
    FloatOps.matmul (plainDims a k b wf) prec lhs rhs (constant ⟨2, ![a, b]⟩ .f32 0x00000000#32) (ix2 i j)
      = ∑ e : Fin k, lhs (ix2 i e) * rhs (ix2 e j) :=
  (Ideal.matmul_constant_zero_apply (plainDims a k b wf) prec lhs rhs (ix2 i j)).trans (plain_sum wf lhs rhs i j)

/-- The host's plain product, at `(i, j)`: the same sum. -/
theorem dotGeneral_plain_apply {φ₁ φ₂ : FTy} (wf : DotDims.WF ⟨2, ![a, k]⟩ ⟨2, ![k, b]⟩ ⟨2, ![a, b]⟩ [1] [0] [0] [1] [] [])
    (prec : Option ContractPrecision) (sched : HostSchedule) (lhs : FVec Ideal ⟨2, ![a, k]⟩ φ₁)
    (rhs : FVec Ideal ⟨2, ![k, b]⟩ φ₂) (i : Fin a) (j : Fin b) :
    FloatOps.dotGeneral (plainDims a k b wf) prec sched lhs rhs (ix2 i j)
      = ∑ e : Fin k, lhs (ix2 i e) * rhs (ix2 e j) :=
  (Ideal.dotGeneral_apply (plainDims a k b wf) prec sched lhs rhs (ix2 i j)).trans (plain_sum wf lhs rhs i j)

end Cert.LibRowMax

end
-- ==== Proof.PointValues.lean ====
/-
  What one grid point computes, read at an index, over the extended reals.

  The body has five pure pieces.  Over a graph's whole feature block it forms every node's message (two affine layers with
  the positive part; the weights arrive transposed, `(in, out)`, and the biases as one-row matrices).  Over a tile of 512
  nodes it forms the gate pre-activations of the gathered messages (`gx`: the tile's adjacency rows against all messages,
  positive part, then an affine map into 3·128 columns) and of the tile's own features (`gh`), and combines them column by
  column in the gated recurrent cell.  Each piece is read here at explicit coordinates as the matching function of
  `Spec.lean`; a matrix product into a zero accumulator is the plain sum over the contracted coordinate, a change of float
  format is the identity, and the three column blocks of a 3·128 row are cut at 0, 128 and 256.
-/
import proofs.«175723_j66872640798743_2_alg».proof.Proof.Gen.KernelIdeal.Skeleton
import proofs.«175723_j66872640798743_2_alg».proof.Proof.Spec
import proofs.«175723_j66872640798743_2_alg».proof.Proof.LibRowMax
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PointValue

open Cert.KernelIdeal Cert.KernelIdeal.Gen Cert.GatedMessagePassing Cert.LibRowMax
open Idealize.ShloMosaic Idealize.ShloMosaic.ValueIdx

/-! ## The three matrix products -/

/-- Features (or first-layer activations) against a transposed 128 × 128 weight: the sum over the 128 inner coordinates. -/
theorem product_nodes (l : FVec Ideal S2048x128 .bf16) (r : FVec Ideal S128x128 .bf16) (i : Fin 2048) (j : Fin 128) :
    matmul dot_S2048x128_S128x128_S2048x128_1_0_0_1_n_n none l r (constant (F := Ideal) S2048x128 .f32 0x00000000#32) (ix2 i j)
      = ∑ e : Fin 128, l (ix2 i e) * r (ix2 e j) :=
  matmul_plain_apply (a := 2048) (k := 128) (b := 128) dot_S2048x128_S128x128_S2048x128_1_0_0_1_n_n_wf none l r i j

/-- A tile's adjacency rows against all 2048 messages: the sum over the 2048 nodes. -/
theorem product_adjacency (l : FVec Ideal S512x2048 .bf16) (r : FVec Ideal S2048x128 .bf16) (i : Fin 512) (j : Fin 128) :
    matmul dot_S512x2048_S2048x128_S512x128_1_0_0_1_n_n none l r (constant (F := Ideal) S512x128 .f32 0x00000000#32) (ix2 i j)
      = ∑ e : Fin 2048, l (ix2 i e) * r (ix2 e j) :=
  matmul_plain_apply (a := 512) (k := 2048) (b := 128) dot_S512x2048_S2048x128_S512x128_1_0_0_1_n_n_wf none l r i j

/-- A tile's rows against a transposed 3·128 × 128 gate weight: the sum over the 128 inner coordinates. -/
theorem product_gates (l : FVec Ideal S512x128 .bf16) (r : FVec Ideal S128x384 .bf16) (i : Fin 512) (j : Fin 384) :
    matmul dot_S512x128_S128x384_S512x384_1_0_0_1_n_n none l r (constant (F := Ideal) S512x384 .f32 0x00000000#32) (ix2 i j)
      = ∑ e : Fin 128, l (ix2 i e) * r (ix2 e j) :=
  matmul_plain_apply (a := 512) (k := 128) (b := 384) dot_S512x128_S128x384_S512x384_1_0_0_1_n_n_wf none l r i j

/-! ## Pointwise operations at an index -/

variable {s : Shape} {φ : FTy}

theorem logistic_apply (a : FVec Ideal s φ) (i : s.Idx) : logistic a i = Ideal.logistic (a i) := rfl
theorem tanh_apply (a : FVec Ideal s φ) (i : s.Idx) : tanh a i = Ideal.tanh (a i) := rfl

/-! ## The messages of a whole graph -/

/-- The stored message block at node `n`, coordinate `j`: the two-layer message of the node's feature row. -/
theorem messages_apply (x : Vec Ideal S1x2048x128 .f32) (w1 : Vec Ideal S128x128 .f32) (c1 : Vec Ideal S1x128 .f32)
    (w2 : Vec Ideal S128x128 .f32) (c2 : Vec Ideal S1x128 .f32) (n : Fin 2048) (j : Fin 128) :
    k0_pay2 (F := Ideal) x w1 c1 w2 c2 (ix2 n j)
      = message (fun k => x (ix3 (0 : Fin 1) n k)) (fun o k => w1 (ix2 k o)) (fun o => c1 (ix2 (0 : Fin 1) o))
          (fun o k => w2 (ix2 k o)) (fun o => c2 (ix2 (0 : Fin 1) o)) j := by
  unfold k0_pay2 message relu affine
  simp only [shapeCast_self, truncf_apply, maximumf_apply, addf_apply, broadcast_apply, product_nodes,
    broadcastTo_1b_ab_apply, shapeCast_1ab_ab_apply]
  rfl

/-! ## The gate pre-activations of a tile -/

/-- The tile's own feature rows, with the leading unit axis dropped. -/
theorem tile_apply (xt : Vec Ideal S1x512x128 .f32) (r : Fin 512) (j : Fin 128) :
    k0_pay3 (F := Ideal) xt (ix2 r j) = xt (ix3 (0 : Fin 1) r j) := by
  unfold k0_pay3
  exact shapeCast_1ab_ab_apply _ _ r j

/-- `gx` at node `r` of the tile, column `q`: the affine gate map of what the node gathers. -/
theorem gx_apply (adj : Vec Ideal S1x512x2048 .f32) (ms : Vec Ideal S2048x128 .bf16) (wih : Vec Ideal S128x384 .f32)
    (cih : Vec Ideal S1x384 .f32) (r : Fin 512) (q : Fin 384) :
    k0_pay4 (F := Ideal) adj ms wih cih (ix2 r q)
      = affine (gathered (fun k => adj (ix3 (0 : Fin 1) r k)) (fun k j => ms (ix2 k j)))
          (fun o k => wih (ix2 k o)) (fun o => cih (ix2 (0 : Fin 1) o)) q := by
  unfold k0_pay4 affine gathered relu
  simp only [shapeCast_self, truncf_apply, maximumf_apply, addf_apply, broadcast_apply, product_adjacency, product_gates,
    broadcastTo_1b_ab_apply, shapeCast_1ab_ab_apply]
  rfl

/-- `gh` at node `r` of the tile, column `q`: the affine gate map of the node's own feature row. -/
theorem gh_apply (xt : Vec Ideal S1x512x128 .f32) (whh : Vec Ideal S128x384 .f32) (chh : Vec Ideal S1x384 .f32)
    (r : Fin 512) (q : Fin 384) :
    k0_pay5 (F := Ideal) xt whh chh (ix2 r q)
      = affine (fun k => xt (ix3 (0 : Fin 1) r k)) (fun o k => whh (ix2 k o)) (fun o => chh (ix2 (0 : Fin 1) o)) q := by
  unfold k0_pay5 k0_pay3 affine
  simp only [shapeCast_self, truncf_apply, addf_apply, product_gates, broadcastTo_1b_ab_apply, shapeCast_1ab_ab_apply]

/-! ## The cell -/

/-- A 512 × 3·128 array cut at column offset `o` reads column `o + j`. -/
theorem cut_apply (o : ℕ) (v : FVec Ideal S512x384 .f32) (h : S512x384.Slices ![0, o] S512x128) (r : Fin 512) (j : Fin 128)
    (k : Fin 384) (hk : k.val = o + j.val) : extractStridedSlice S512x128 ![0, o] v h (ix2 r j) = v (ix2 r k) :=
  slice2_axis1_apply o v h r j k hk

/-- The stored output block at node `r` of the tile, coordinate `j`: the gated recurrent cell of the node's gathered messages
    and its own feature row. -/
theorem cell_apply (adj : Vec Ideal S1x512x2048 .f32) (ms : Vec Ideal S2048x128 .bf16) (xt : Vec Ideal S1x512x128 .f32)
    (wih whh : Vec Ideal S128x384 .f32) (cih chh : Vec Ideal S1x384 .f32) (u : Fin 1) (r : Fin 512) (j : Fin 128) :
    k0_pay1 (F := Ideal) (k0_pay3 xt) (k0_pay4 adj ms wih cih) (k0_pay5 xt whh chh) (k0_pay6 adj ms wih cih)
        (k0_pay7 adj ms wih cih) (ix3 u r j)
      = cell (gathered (fun k => adj (ix3 (0 : Fin 1) r k)) (fun k j => ms (ix2 k j))) (fun k => xt (ix3 (0 : Fin 1) r k))
          (fun o k => wih (ix2 k o)) (fun o k => whh (ix2 k o)) (fun o => cih (ix2 (0 : Fin 1) o))
          (fun o => chh (ix2 (0 : Fin 1) o)) j := by
  unfold k0_pay1 k0_pay6 k0_pay7 cell
  rw [shapeCast_ab_1ab_apply]
  simp only [addf_apply, mulf_apply, subf_apply, broadcast_apply, logistic_apply, tanh_apply,
    cut_apply 0 _ _ r j (blk0 j) (Nat.zero_add _).symm, cut_apply 128 _ _ r j (blk1 j) rfl,
    cut_apply 256 _ _ r j (blk2 j) rfl, gx_apply, gh_apply, tile_apply]
  rfl

end Cert.KernelIdeal.PointValue

end
-- ==== Proof.KernelRound.lean ====
/-
  The kernel's result array is one round of gated message passing.

  Read through the output window, the block the point (graph, tile) writes back is the round at the tile's 512 nodes of
  that graph: the point's adjacency rows and feature rows are rows `512·tile …` of the graph's arrays, the messages in
  the scratch are those of the graph's whole feature array, and the parameter blocks are the parameter arrays.  The 32
  blocks tile the result array, node `n` of graph `b` lying in the block of (graph `b`, tile `n / 512`); so after the
  run the result array is the round, as a function of the arrays as the region finds them.
-/
import proofs.«175723_j66872640798743_2_alg».proof.Proof.Tiles
import proofs.«175723_j66872640798743_2_alg».proof.Proof.Blocks
import proofs.«175723_j66872640798743_2_alg».proof.Proof.PointValues
import proofs.«175723_j66872640798743_2_alg».proof.Proof.Gen.KernelIdeal.Value

noncomputable section

namespace Cert.KernelIdeal.Whole

open Cert.KernelIdeal Cert.KernelIdeal.Gen Cert.KernelIdeal.Piece Cert.KernelIdeal.Tiles Cert.KernelIdeal.Blocks
open Cert.KernelIdeal.PointValue Cert.GatedMessagePassing
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The round at graph `b`, node `n`, coordinate `j`, of the arrays as the region finds them: the features `H`, the
    adjacency `A`, and the parameters with the weights transposed, `(in, out)`, and the biases as one-row matrices. -/
def roundAt (H : S8x2048x128.Idx → Elt Ideal .f32) (A : S8x2048x2048.Idx → Elt Ideal .f32)
    (W1t : S128x128.Idx → Elt Ideal .f32) (B1 : S1x128.Idx → Elt Ideal .f32) (W2t : S128x128.Idx → Elt Ideal .f32)
    (B2 : S1x128.Idx → Elt Ideal .f32) (Wih Whh : S128x384.Idx → Elt Ideal .f32) (Bih Bhh : S1x384.Idx → Elt Ideal .f32)
    (b : Fin 8) (n : Fin 2048) (j : Fin 128) : EReal :=
  update (fun n k => H (ix3 b n k)) (fun n k => A (ix3 b n k)) (fun o k => W1t (ix2 k o)) (fun o => B1 (ix2 (0 : Fin 1) o))
    (fun o k => W2t (ix2 k o)) (fun o => B2 (ix2 (0 : Fin 1) o)) (fun o k => Wih (ix2 k o)) (fun o k => Whh (ix2 k o))
    (fun o => Bih (ix2 (0 : Fin 1) o)) (fun o => Bhh (ix2 (0 : Fin 1) o)) n j

/-- The same as one array over (graph, node, coordinate). -/
def round (H : S8x2048x128.Idx → Elt Ideal .f32) (A : S8x2048x2048.Idx → Elt Ideal .f32)
    (W1t : S128x128.Idx → Elt Ideal .f32) (B1 : S1x128.Idx → Elt Ideal .f32) (W2t : S128x128.Idx → Elt Ideal .f32)
    (B2 : S1x128.Idx → Elt Ideal .f32) (Wih Whh : S128x384.Idx → Elt Ideal .f32) (Bih Bhh : S1x384.Idx → Elt Ideal .f32) :
    S8x2048x128.Idx → Elt Ideal .f32 :=
  fun i => roundAt H A W1t B1 W2t B2 Wih Whh Bih Bhh (i 0) (i 1) (i 2)

/-- What the point `t` writes back is its block of the round. -/
theorem flushed_eq (c : Dev nD) (t : Fin cfg0.N) :
    (dats m 0 c).flushed 10 t = ((cfg0.win 10).blk t).view.read (Elt Ideal) (round (V m c main_arg0) (V m c main_arg1) (V m c main_v0) (V m c main_v4) (V m c main_v1) (V m c main_v5) (V m c main_v2) (V m c main_v3) (V m c main_v6) (V m c main_v7)) := by
  have hN : cfg0.N = 32 := N_0
  have ht : t.val < 32 := lt_of_lt_of_eq t.isLt hN
  have h₀ : 4 * (t.val / 4) < cfg0.N := lt_of_lt_of_eq (by omega : 4 * (t.val / 4) < 32) hN.symm
  rw [Value.flushed10, out_eq m c t ⟨4 * (t.val / 4), h₀⟩ rfl]
  funext y
  obtain ⟨u, r, j, rfl⟩ : ∃ (u : Fin 1) (r : Fin 512) (j : Fin 128), y = ix3 u r j := ⟨y 0, y 1, y 2, eq_ix3 y⟩
  obtain ⟨-, -, -, -, -, -, q0, q1, q2, -⟩ := idx_moving t
  have hb : t.val / 4 < 8 := by omega
  have hr : 512 * (t.val % 4) + r.val < 2048 := by have := r.isLt; omega
  have hu : u = 0 := Subsingleton.elim _ _
  subst hu
  have he : ((cfg0.win 10).blk t).view.emb (ix3 (0 : Fin 1) r j)
      = ix3 (⟨t.val / 4, hb⟩ : Fin 8) (⟨512 * (t.val % 4) + r.val, hr⟩ : Fin 2048) j := funext fun a => Fin.ext (by
    match a with
    | ⟨0, _⟩ => show win0_10.index t (0 : Fin 3) * 1 + 1 * 0 = t.val / 4; omega
    | ⟨1, _⟩ => show win0_10.index t (1 : Fin 3) * 512 + 1 * r.val = 512 * (t.val % 4) + r.val; omega
    | ⟨2, _⟩ => show win0_10.index t (2 : Fin 3) * 128 + 1 * j.val = j.val; omega)
  show stored (grid0.coords t) (iblk m c 0 t) (iblk m c 1 t) (msgsAt m c ⟨4 * (t.val / 4), h₀⟩) (iblk m c 6 t) (iblk m c 7 t)
      (iblk m c 8 t) (iblk m c 9 t) (ix3 (0 : Fin 1) r j)
    = round (V m c main_arg0) (V m c main_arg1) (V m c main_v0) (V m c main_v4) (V m c main_v1) (V m c main_v5) (V m c main_v2) (V m c main_v3) (V m c main_v6) (V m c main_v7) (((cfg0.win 10).blk t).view.emb (ix3 (0 : Fin 1) r j))
  rw [he]
  rw [whole_6 m c t, whole_7 m c t, whole_8 m c t, whole_9 m c t]
  unfold msgsAt
  rw [whole_2 m c _, whole_3 m c _, whole_4 m c _, whole_5 m c _]
  unfold stored
  refine (cell_apply (iblk m c 0 t)
    (k0_pay2 (iblk m c 1 ⟨4 * (t.val / 4), h₀⟩) (V m c main_v0) (V m c main_v4) (V m c main_v1) (V m c main_v5))
    (tile (grid0.coords t) (iblk m c 1 t)) (V m c main_v2) (V m c main_v3) (V m c main_v6) (V m c main_v7) 0 r j).trans ?_
  have hadj : (fun k => iblk m c 0 t (ix3 (0 : Fin 1) r k))
      = fun k => V m c main_arg1 (ix3 (⟨t.val / 4, hb⟩ : Fin 8) (⟨512 * (t.val % 4) + r.val, hr⟩ : Fin 2048) k) :=
    funext fun k => adj_read m c t 0 r k _ _ rfl rfl
  have hx : (fun k => tile (grid0.coords t) (iblk m c 1 t) (ix3 (0 : Fin 1) r k))
      = fun k => V m c main_arg0 (ix3 (⟨t.val / 4, hb⟩ : Fin 8) (⟨512 * (t.val % 4) + r.val, hr⟩ : Fin 2048) k) :=
    funext fun k => tile_read m c t 0 r k _ _ rfl rfl
  have hms : (fun (k : Fin 2048) (j : Fin 128) =>
        k0_pay2 (iblk m c 1 ⟨4 * (t.val / 4), h₀⟩) (V m c main_v0) (V m c main_v4) (V m c main_v1) (V m c main_v5) (ix2 k j))
      = fun k => message (fun l => V m c main_arg0 (ix3 (⟨t.val / 4, hb⟩ : Fin 8) k l)) (fun o l => V m c main_v0 (ix2 l o))
          (fun o => V m c main_v4 (ix2 (0 : Fin 1) o)) (fun o l => V m c main_v1 (ix2 l o))
          (fun o => V m c main_v5 (ix2 (0 : Fin 1) o)) :=
    funext fun k => funext fun j => by
      refine (messages_apply (iblk m c 1 ⟨4 * (t.val / 4), h₀⟩) (V m c main_v0) (V m c main_v4) (V m c main_v1)
        (V m c main_v5) k j).trans ?_
      have hf : (fun l => iblk m c 1 ⟨4 * (t.val / 4), h₀⟩ (ix3 (0 : Fin 1) k l))
          = fun l => V m c main_arg0 (ix3 (⟨t.val / 4, hb⟩ : Fin 8) k l) :=
        funext fun l => feat_read m c ⟨4 * (t.val / 4), h₀⟩ 0 k l _ (by show t.val / 4 = 4 * (t.val / 4) / 4; omega)
      rw [hf]
  rw [hadj, hx, hms]
  rfl

/-- An index of the result array lies in the point `t`'s block iff every coordinate lies in the block's range. -/
theorem mem_blk (t : Fin cfg0.N) (i : S8x2048x128.Idx) :
    i ∈ ((cfg0.win 10).blk t).view.set ↔ ∀ a : Fin 3, win0_10.index t a * S1x512x128.size a ≤ (i a).val
      ∧ (i a).val < win0_10.index t a * S1x512x128.size a + S1x512x128.size a := by
  show i ∈ ((View.whole main_v8).slice (win0_10.rect t)).set ↔ _
  rw [View.set_slice_whole, Rect.mem_set_unit]
  exact Iff.rfl

/-- The blocks tile the result array: node `n` of graph `b` lies in the block of the point (graph `b`, tile `n / 512`);
    so after the run the result array is the round. -/
theorem final (c : Dev nD) : (dats m 0 c).arrAt 10 cfg0.N = round (V m c main_arg0) (V m c main_arg1) (V m c main_v0) (V m c main_v4) (V m c main_v1) (V m c main_v5) (V m c main_v2) (V m c main_v3) (V m c main_v6) (V m c main_v7) :=
  (dats m 0 c).arrAt_eq_of_cover 10 (round (V m c main_arg0) (V m c main_arg1) (V m c main_v0) (V m c main_v4) (V m c main_v1) (V m c main_v5) (V m c main_v2) (V m c main_v3) (V m c main_v6) (V m c main_v7)) (fun t _ => flushed_eq m c t) fun i => by
    have hN : cfg0.N = 32 := N_0
    have h0 : (i 0).val < 8 := (i 0).isLt
    have h1 : (i 1).val < 2048 := (i 1).isLt
    have h2 : (i 2).val < 128 := (i 2).isLt
    have hp : 4 * (i 0).val + (i 1).val / 512 < cfg0.N := lt_of_lt_of_eq (by omega : 4 * (i 0).val + (i 1).val / 512 < 32) hN.symm
    obtain ⟨-, -, -, -, -, -, q0, q1, q2, -⟩ := idx_moving ⟨4 * (i 0).val + (i 1).val / 512, hp⟩
    refine ⟨⟨4 * (i 0).val + (i 1).val / 512, hp⟩, flush0_10 _, ?_⟩
    rw [mem_blk]
    intro a
    match a with
    | ⟨0, _⟩ =>
      show win0_10.index ⟨4 * (i 0).val + (i 1).val / 512, hp⟩ (0 : Fin 3) * 1 ≤ (i 0).val
        ∧ (i 0).val < win0_10.index ⟨4 * (i 0).val + (i 1).val / 512, hp⟩ (0 : Fin 3) * 1 + 1
      rw [q0]; show (4 * (i 0).val + (i 1).val / 512) / 4 * 1 ≤ _ ∧ _ < (4 * (i 0).val + (i 1).val / 512) / 4 * 1 + 1; omega
    | ⟨1, _⟩ =>
      show win0_10.index ⟨4 * (i 0).val + (i 1).val / 512, hp⟩ (1 : Fin 3) * 512 ≤ (i 1).val
        ∧ (i 1).val < win0_10.index ⟨4 * (i 0).val + (i 1).val / 512, hp⟩ (1 : Fin 3) * 512 + 512
      rw [q1]; show (4 * (i 0).val + (i 1).val / 512) % 4 * 512 ≤ _ ∧ _ < (4 * (i 0).val + (i 1).val / 512) % 4 * 512 + 512; omega
    | ⟨2, _⟩ =>
      show win0_10.index ⟨4 * (i 0).val + (i 1).val / 512, hp⟩ (2 : Fin 3) * 128 ≤ (i 2).val
        ∧ (i 2).val < win0_10.index ⟨4 * (i 0).val + (i 1).val / 512, hp⟩ (2 : Fin 3) * 128 + 128
      rw [q2]; omega

/-- The run: the result array ends at the round of the arrays as the region finds them, the arguments unchanged. -/
theorem run : θ_run defs (onTc (τ := τ) (main (F := Ideal))) ⟨m, fun _ => 0, ρ⟩ fun r => ∀ c : Dev nD,
      r.2.mem ((c : Thread nD τ).loc main_v8) = round (V m c main_arg0) (V m c main_arg1) (V m c main_v0) (V m c main_v4) (V m c main_v1) (V m c main_v5) (V m c main_v2) (V m c main_v3) (V m c main_v6) (V m c main_v7)
      ∧       r.2.mem ((c : Thread nD τ).loc main_arg0) = m ((c : Thread nD τ).loc main_arg0)
      ∧       r.2.mem ((c : Thread nD τ).loc main_arg1) = m ((c : Thread nD τ).loc main_arg1)
      ∧       r.2.mem ((c : Thread nD τ).loc main_arg2) = m ((c : Thread nD τ).loc main_arg2)
      ∧       r.2.mem ((c : Thread nD τ).loc main_arg3) = m ((c : Thread nD τ).loc main_arg3)
      ∧       r.2.mem ((c : Thread nD τ).loc main_arg4) = m ((c : Thread nD τ).loc main_arg4)
      ∧       r.2.mem ((c : Thread nD τ).loc main_arg5) = m ((c : Thread nD τ).loc main_arg5)
      ∧       r.2.mem ((c : Thread nD τ).loc main_arg6) = m ((c : Thread nD τ).loc main_arg6)
      ∧       r.2.mem ((c : Thread nD τ).loc main_arg7) = m ((c : Thread nD τ).loc main_arg7)
      ∧       r.2.mem ((c : Thread nD τ).loc main_arg8) = m ((c : Thread nD τ).loc main_arg8)
      ∧       r.2.mem ((c : Thread nD τ).loc main_arg9) = m ((c : Thread nD τ).loc main_arg9) :=
  (θ_run defs _ _).mono (fun r h c => ⟨(h c).1.trans (final m c), (h c).2⟩) (Value.run_blocks m ρ)

end Cert.KernelIdeal.Whole
end
-- ==== Proof.Round.lean ====
/-
  The round over the argument arrays: eight graphs of 2048 nodes with 128 features each, the adjacency of each graph,
  and the parameters as they are passed — weights indexed (out, in), biases as vectors.  `roundOf … (b, n, j)` is
  `update` of graph `b`'s features and adjacency at node `n`, coordinate `j`.
-/
import proofs.«175723_j66872640798743_2_alg».proof.Proof.Spec
import Idealize.ShloMosaic.Lib.ValueIdx

noncomputable section

namespace Cert.GatedMessagePassing

open Idealize.ShloMosaic Idealize.ShloMosaic.ValueIdx

/-- The round at graph `b`, node `n`, coordinate `j`. -/
def roundOfAt (h : (⟨3, ![8, 2048, 128]⟩ : Shape).Idx → EReal) (A : (⟨3, ![8, 2048, 2048]⟩ : Shape).Idx → EReal)
    (W1 : (⟨2, ![128, 128]⟩ : Shape).Idx → EReal) (b1 : (⟨1, ![128]⟩ : Shape).Idx → EReal)
    (W2 : (⟨2, ![128, 128]⟩ : Shape).Idx → EReal) (b2 : (⟨1, ![128]⟩ : Shape).Idx → EReal)
    (Wih Whh : (⟨2, ![384, 128]⟩ : Shape).Idx → EReal) (bih bhh : (⟨1, ![384]⟩ : Shape).Idx → EReal)
    (b : Fin 8) (n : Fin 2048) (j : Fin 128) : EReal :=
  update (fun n k => h (ix3 b n k)) (fun n k => A (ix3 b n k)) (fun o k => W1 (ix2 o k)) (fun o => b1 (ix1 o))
    (fun o k => W2 (ix2 o k)) (fun o => b2 (ix1 o)) (fun o k => Wih (ix2 o k)) (fun o k => Whh (ix2 o k))
    (fun o => bih (ix1 o)) (fun o => bhh (ix1 o)) n j

/-- The round as one array over (graph, node, coordinate). -/
def roundOf (h : (⟨3, ![8, 2048, 128]⟩ : Shape).Idx → EReal) (A : (⟨3, ![8, 2048, 2048]⟩ : Shape).Idx → EReal)
    (W1 : (⟨2, ![128, 128]⟩ : Shape).Idx → EReal) (b1 : (⟨1, ![128]⟩ : Shape).Idx → EReal)
    (W2 : (⟨2, ![128, 128]⟩ : Shape).Idx → EReal) (b2 : (⟨1, ![128]⟩ : Shape).Idx → EReal)
    (Wih Whh : (⟨2, ![384, 128]⟩ : Shape).Idx → EReal) (bih bhh : (⟨1, ![384]⟩ : Shape).Idx → EReal) :
    (⟨3, ![8, 2048, 128]⟩ : Shape).Idx → EReal :=
  fun i => roundOfAt h A W1 b1 W2 b2 Wih Whh bih bhh (i 0) (i 1) (i 2)

end Cert.GatedMessagePassing

end
-- ==== Proof.KernelArguments.lean ====
/-
  The kernel's result, against the argument arrays.

  Before the region the program transposes the four weight matrices and reshapes the four bias vectors into one-row
  matrices; the features and the adjacency reach the region as passed.  A transposed weight read at `(in, out)` is the
  weight at `(out, in)`, and a one-row bias at `(0, out)` is the bias at `out`; so the round of the arrays as the region
  finds them is the round of the arguments.
-/
import proofs.«175723_j66872640798743_2_alg».proof.Proof.KernelRound
import proofs.«175723_j66872640798743_2_alg».proof.Proof.Round
import Idealize.ShloMosaic.Lib.ValueLayout
import Idealize.ShloMosaic.Lib.StableHlo.Run
import Idealize.ShloMosaic.Lib.Tactic

noncomputable section

namespace Cert.KernelIdeal.Whole

open Cert.KernelIdeal Cert.KernelIdeal.Gen Cert.GatedMessagePassing
open Idealize.ShloMosaic Idealize.ShloMosaic.TcCoe Idealize.SL.Sem Idealize.ShloMosaic.ValueIdx

variable (m : (ℓ : Loc nD τ sig) → Buf (Elt Ideal) ℓ) (ρ : Dev nD → PrngReg)

/-! ## The arrays as the region finds them: each weight transposed, each bias as a one-row matrix -/

theorem entry_v0 (c : Dev nD) (k : Fin 128) (o : Fin 128) :
    V m c main_v0 (ix2 k o) = m ((c : Thread nD τ).loc main_arg2) (ix2 o k) := by
  have e : (V m c main_v0 : S128x128.Idx → Elt Ideal .f32)
      = transpose S128x128 [1, 0] (m ((c : Thread nD τ).loc main_arg2)) transposes_S128x128_S128x128_1_0 := by
    dsimp only [V, hostOps0]; after_results
  rw [e]
  exact transpose_ix2_apply _ _ k o

theorem entry_v1 (c : Dev nD) (k : Fin 128) (o : Fin 128) :
    V m c main_v1 (ix2 k o) = m ((c : Thread nD τ).loc main_arg4) (ix2 o k) := by
  have e : (V m c main_v1 : S128x128.Idx → Elt Ideal .f32)
      = transpose S128x128 [1, 0] (m ((c : Thread nD τ).loc main_arg4)) transposes_S128x128_S128x128_1_0 := by
    dsimp only [V, hostOps0]; after_results
  rw [e]
  exact transpose_ix2_apply _ _ k o

theorem entry_v2 (c : Dev nD) (k : Fin 128) (o : Fin 384) :
    V m c main_v2 (ix2 k o) = m ((c : Thread nD τ).loc main_arg6) (ix2 o k) := by
  have e : (V m c main_v2 : S128x384.Idx → Elt Ideal .f32)
      = transpose S128x384 [1, 0] (m ((c : Thread nD τ).loc main_arg6)) transposes_S384x128_S128x384_1_0 := by
    dsimp only [V, hostOps0]; after_results
  rw [e]
  exact transpose_ix2_apply _ _ k o

theorem entry_v3 (c : Dev nD) (k : Fin 128) (o : Fin 384) :
    V m c main_v3 (ix2 k o) = m ((c : Thread nD τ).loc main_arg7) (ix2 o k) := by
  have e : (V m c main_v3 : S128x384.Idx → Elt Ideal .f32)
      = transpose S128x384 [1, 0] (m ((c : Thread nD τ).loc main_arg7)) transposes_S384x128_S128x384_1_0 := by
    dsimp only [V, hostOps0]; after_results
  rw [e]
  exact transpose_ix2_apply _ _ k o

theorem entry_v4 (c : Dev nD) (u : Fin 1) (o : Fin 128) :
    V m c main_v4 (ix2 u o) = m ((c : Thread nD τ).loc main_arg3) (ix1 o) := by
  have e : (V m c main_v4 : S1x128.Idx → Elt Ideal .f32)
      = shapeCast S1x128 (m ((c : Thread nD τ).loc main_arg3)) shapeCasts_S128_S1x128 := by
    dsimp only [V, hostOps0]; after_results; rfl
  rw [e]
  exact shapeCast_a_1a_apply _ _ u o

theorem entry_v5 (c : Dev nD) (u : Fin 1) (o : Fin 128) :
    V m c main_v5 (ix2 u o) = m ((c : Thread nD τ).loc main_arg5) (ix1 o) := by
  have e : (V m c main_v5 : S1x128.Idx → Elt Ideal .f32)
      = shapeCast S1x128 (m ((c : Thread nD τ).loc main_arg5)) shapeCasts_S128_S1x128 := by
    dsimp only [V, hostOps0]; after_results; rfl
  rw [e]
  exact shapeCast_a_1a_apply _ _ u o

theorem entry_v6 (c : Dev nD) (u : Fin 1) (o : Fin 384) :
    V m c main_v6 (ix2 u o) = m ((c : Thread nD τ).loc main_arg8) (ix1 o) := by
  have e : (V m c main_v6 : S1x384.Idx → Elt Ideal .f32)
      = shapeCast S1x384 (m ((c : Thread nD τ).loc main_arg8)) shapeCasts_S384_S1x384 := by
    dsimp only [V, hostOps0]; after_results; rfl
  rw [e]
  exact shapeCast_a_1a_apply _ _ u o

theorem entry_v7 (c : Dev nD) (u : Fin 1) (o : Fin 384) :
    V m c main_v7 (ix2 u o) = m ((c : Thread nD τ).loc main_arg9) (ix1 o) := by
  have e : (V m c main_v7 : S1x384.Idx → Elt Ideal .f32)
      = shapeCast S1x384 (m ((c : Thread nD τ).loc main_arg9)) shapeCasts_S384_S1x384 := by
    dsimp only [V, hostOps0]; after_results; rfl
  rw [e]
  exact shapeCast_a_1a_apply _ _ u o

/-- So the round of the arrays as the region finds them is the round of the argument arrays. -/
theorem round_entry (c : Dev nD) : round (V m c main_arg0) (V m c main_arg1) (V m c main_v0) (V m c main_v4) (V m c main_v1) (V m c main_v5) (V m c main_v2) (V m c main_v3) (V m c main_v6) (V m c main_v7) = roundOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  funext i
  obtain ⟨b, n, j, rfl⟩ : ∃ (b : Fin 8) (n : Fin 2048) (j : Fin 128), i = ix3 b n j := ⟨i 0, i 1, i 2, eq_ix3 i⟩
  show roundAt (V m c main_arg0) (V m c main_arg1) (V m c main_v0) (V m c main_v4) (V m c main_v1) (V m c main_v5) (V m c main_v2) (V m c main_v3) (V m c main_v6) (V m c main_v7) b n j = roundOfAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) b n j
  unfold roundAt roundOfAt
  have e0 : (fun (o : Fin 128) (k : Fin 128) => V m c main_v0 (ix2 k o)) = fun o k => m ((c : Thread nD τ).loc main_arg2) (ix2 o k) :=
    funext fun o => funext fun k => entry_v0 m c k o
  have e1 : (fun (o : Fin 128) (k : Fin 128) => V m c main_v1 (ix2 k o)) = fun o k => m ((c : Thread nD τ).loc main_arg4) (ix2 o k) :=
    funext fun o => funext fun k => entry_v1 m c k o
  have e2 : (fun (o : Fin 384) (k : Fin 128) => V m c main_v2 (ix2 k o)) = fun o k => m ((c : Thread nD τ).loc main_arg6) (ix2 o k) :=
    funext fun o => funext fun k => entry_v2 m c k o
  have e3 : (fun (o : Fin 384) (k : Fin 128) => V m c main_v3 (ix2 k o)) = fun o k => m ((c : Thread nD τ).loc main_arg7) (ix2 o k) :=
    funext fun o => funext fun k => entry_v3 m c k o
  have e4 : (fun (o : Fin 128) => V m c main_v4 (ix2 (0 : Fin 1) o)) = fun o => m ((c : Thread nD τ).loc main_arg3) (ix1 o) :=
    funext fun o => entry_v4 m c 0 o
  have e5 : (fun (o : Fin 128) => V m c main_v5 (ix2 (0 : Fin 1) o)) = fun o => m ((c : Thread nD τ).loc main_arg5) (ix1 o) :=
    funext fun o => entry_v5 m c 0 o
  have e6 : (fun (o : Fin 384) => V m c main_v6 (ix2 (0 : Fin 1) o)) = fun o => m ((c : Thread nD τ).loc main_arg8) (ix1 o) :=
    funext fun o => entry_v6 m c 0 o
  have e7 : (fun (o : Fin 384) => V m c main_v7 (ix2 (0 : Fin 1) o)) = fun o => m ((c : Thread nD τ).loc main_arg9) (ix1 o) :=
    funext fun o => entry_v7 m c 0 o
  rw [e0, e1, e2, e3, e4, e5, e6, e7, V_main_arg0 m c, V_main_arg1 m c]

/-- The kernel's run, read against the argument arrays. -/
theorem run_args : θ_run defs (onTc (τ := τ) (main (F := Ideal))) ⟨m, fun _ => 0, ρ⟩ fun r => ∀ c : Dev nD,
      r.2.mem ((c : Thread nD τ).loc main_v8) = roundOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
      ∧       r.2.mem ((c : Thread nD τ).loc main_arg0) = m ((c : Thread nD τ).loc main_arg0)
      ∧       r.2.mem ((c : Thread nD τ).loc main_arg1) = m ((c : Thread nD τ).loc main_arg1)
      ∧       r.2.mem ((c : Thread nD τ).loc main_arg2) = m ((c : Thread nD τ).loc main_arg2)
      ∧       r.2.mem ((c : Thread nD τ).loc main_arg3) = m ((c : Thread nD τ).loc main_arg3)
      ∧       r.2.mem ((c : Thread nD τ).loc main_arg4) = m ((c : Thread nD τ).loc main_arg4)
      ∧       r.2.mem ((c : Thread nD τ).loc main_arg5) = m ((c : Thread nD τ).loc main_arg5)
      ∧       r.2.mem ((c : Thread nD τ).loc main_arg6) = m ((c : Thread nD τ).loc main_arg6)
      ∧       r.2.mem ((c : Thread nD τ).loc main_arg7) = m ((c : Thread nD τ).loc main_arg7)
      ∧       r.2.mem ((c : Thread nD τ).loc main_arg8) = m ((c : Thread nD τ).loc main_arg8)
      ∧       r.2.mem ((c : Thread nD τ).loc main_arg9) = m ((c : Thread nD τ).loc main_arg9) :=
  (θ_run defs _ _).mono (fun r h c => ⟨(h c).1.trans (round_entry m c), (h c).2⟩) (run m ρ)

end Cert.KernelIdeal.Whole
end
-- ==== Proof.ReferenceRound.lean ====
/-
  The reference computes one round of gated message passing.

  Read stage by stage at explicit coordinates (graph `b`, node `n`, coordinate `j` or gate column `q`): each contraction is
  the sum over its one contracted coordinate, each bias is broadcast along graphs and nodes, the positive part is the
  maximum with the word of `0.0`, the three gate blocks are the column ranges from 0, 128 and 256, and the logistic
  function is spelt `1 / (1 + e⁻ᵗ)` over the word of `1.0`, which is the number one.
-/
import proofs.«175723_j66872640798743_2_alg».proof.Proof.Gen.ReferenceIdeal.Read
import proofs.«175723_j66872640798743_2_alg».proof.Proof.Round

noncomputable section

namespace Cert.ReferenceIdeal.RefRound

open Cert.ReferenceIdeal Cert.ReferenceIdeal.Gen Cert.ReferenceIdeal.Read Cert.GatedMessagePassing
open Idealize.ShloMosaic Idealize.ShloMosaic.ValueIdx

/-! ## The operand indices of each contraction, broadcast and cut, at explicit coordinates -/

variable (b : Fin 8) (n : Fin 2048) (j : Fin 128) (q : Fin 384)

theorem l0 (k : Fin 128) : lidx_main_v0 (ix3 b n j) k = ix3 b n k := funext fun a => Fin.ext (by match a with | ⟨0, _⟩ => rfl | ⟨1, _⟩ => rfl | ⟨2, _⟩ => rfl)
theorem r0 (k : Fin 128) : ridx_main_v0 (ix3 b n j) k = ix2 j k := funext fun a => Fin.ext (by match a with | ⟨0, _⟩ => rfl | ⟨1, _⟩ => rfl)
theorem i2 : idx_main_v2 (ix3 b n j) = ix3 (0 : Fin 1) (0 : Fin 1) j := funext fun a => Fin.ext (by match a with | ⟨0, _⟩ => rfl | ⟨1, _⟩ => rfl | ⟨2, _⟩ => rfl)
theorem i1 : idx_main_v1 (ix3 (0 : Fin 1) (0 : Fin 1) j) = ix1 j := funext fun a => Fin.ext (by match a with | ⟨0, _⟩ => rfl)
theorem l5 (k : Fin 128) : lidx_main_v5 (ix3 b n j) k = ix3 b n k := funext fun a => Fin.ext (by match a with | ⟨0, _⟩ => rfl | ⟨1, _⟩ => rfl | ⟨2, _⟩ => rfl)
theorem r5 (k : Fin 128) : ridx_main_v5 (ix3 b n j) k = ix2 j k := funext fun a => Fin.ext (by match a with | ⟨0, _⟩ => rfl | ⟨1, _⟩ => rfl)
theorem i7 : idx_main_v7 (ix3 b n j) = ix3 (0 : Fin 1) (0 : Fin 1) j := funext fun a => Fin.ext (by match a with | ⟨0, _⟩ => rfl | ⟨1, _⟩ => rfl | ⟨2, _⟩ => rfl)
theorem i6 : idx_main_v6 (ix3 (0 : Fin 1) (0 : Fin 1) j) = ix1 j := funext fun a => Fin.ext (by match a with | ⟨0, _⟩ => rfl)
theorem l10 (k : Fin 2048) : lidx_main_v10 (ix3 b n j) k = ix3 b n k := funext fun a => Fin.ext (by match a with | ⟨0, _⟩ => rfl | ⟨1, _⟩ => rfl | ⟨2, _⟩ => rfl)
theorem r10 (k : Fin 2048) : ridx_main_v10 (ix3 b n j) k = ix3 b k j := funext fun a => Fin.ext (by match a with | ⟨0, _⟩ => rfl | ⟨1, _⟩ => rfl | ⟨2, _⟩ => rfl)
theorem l12 (k : Fin 128) : lidx_main_v12 (ix3 b n q) k = ix3 b n k := funext fun a => Fin.ext (by match a with | ⟨0, _⟩ => rfl | ⟨1, _⟩ => rfl | ⟨2, _⟩ => rfl)
theorem r12 (k : Fin 128) : ridx_main_v12 (ix3 b n q) k = ix2 q k := funext fun a => Fin.ext (by match a with | ⟨0, _⟩ => rfl | ⟨1, _⟩ => rfl)
theorem i14 : idx_main_v14 (ix3 b n q) = ix3 (0 : Fin 1) (0 : Fin 1) q := funext fun a => Fin.ext (by match a with | ⟨0, _⟩ => rfl | ⟨1, _⟩ => rfl | ⟨2, _⟩ => rfl)
theorem i13 : idx_main_v13 (ix3 (0 : Fin 1) (0 : Fin 1) q) = ix1 q := funext fun a => Fin.ext (by match a with | ⟨0, _⟩ => rfl)
theorem l16 (k : Fin 128) : lidx_main_v16 (ix3 b n q) k = ix3 b n k := funext fun a => Fin.ext (by match a with | ⟨0, _⟩ => rfl | ⟨1, _⟩ => rfl | ⟨2, _⟩ => rfl)
theorem r16 (k : Fin 128) : ridx_main_v16 (ix3 b n q) k = ix2 q k := funext fun a => Fin.ext (by match a with | ⟨0, _⟩ => rfl | ⟨1, _⟩ => rfl)
theorem i18 : idx_main_v18 (ix3 b n q) = ix3 (0 : Fin 1) (0 : Fin 1) q := funext fun a => Fin.ext (by match a with | ⟨0, _⟩ => rfl | ⟨1, _⟩ => rfl | ⟨2, _⟩ => rfl)
theorem i17 : idx_main_v17 (ix3 (0 : Fin 1) (0 : Fin 1) q) = ix1 q := funext fun a => Fin.ext (by match a with | ⟨0, _⟩ => rfl)
theorem i20 : idx_main_v20 (ix3 b n j) = ix3 b n (blk0 j) := funext fun a => Fin.ext (by match a with | ⟨0, _⟩ => rfl | ⟨1, _⟩ => rfl | ⟨2, _⟩ => rfl)
theorem i21 : idx_main_v21 (ix3 b n j) = ix3 b n (blk1 j) := funext fun a => Fin.ext (by match a with | ⟨0, _⟩ => rfl | ⟨1, _⟩ => rfl | ⟨2, _⟩ => rfl)
theorem i22 : idx_main_v22 (ix3 b n j) = ix3 b n (blk2 j) := funext fun a => Fin.ext (by match a with | ⟨0, _⟩ => rfl | ⟨1, _⟩ => rfl | ⟨2, _⟩ => rfl)
theorem i23 : idx_main_v23 (ix3 b n j) = ix3 b n (blk0 j) := funext fun a => Fin.ext (by match a with | ⟨0, _⟩ => rfl | ⟨1, _⟩ => rfl | ⟨2, _⟩ => rfl)
theorem i24 : idx_main_v24 (ix3 b n j) = ix3 b n (blk1 j) := funext fun a => Fin.ext (by match a with | ⟨0, _⟩ => rfl | ⟨1, _⟩ => rfl | ⟨2, _⟩ => rfl)
theorem i25 : idx_main_v25 (ix3 b n j) = ix3 b n (blk2 j) := funext fun a => Fin.ext (by match a with | ⟨0, _⟩ => rfl | ⟨1, _⟩ => rfl | ⟨2, _⟩ => rfl)

/-! ## The stages, at explicit coordinates -/

/-- The first layer with its positive part. -/
theorem layer1 (x0 : (⟨S8x2048x128, .f32⟩ : BufTy).Contents (Elt Ideal)) (x2 : (⟨S128x128, .f32⟩ : BufTy).Contents (Elt Ideal)) (x3 : (⟨S128, .f32⟩ : BufTy).Contents (Elt Ideal)) : val_main_v4 (F := Ideal) x0 x2 x3 (ix3 b n j)
    = relu (affine (fun k => x0 (ix3 b n k)) (fun o k => x2 (ix2 o k)) (fun o => x3 (ix1 o)) j) := by
  rw [val_main_v4_apply, val_main_v3_apply, val_main_v0_apply, val_main_v2_apply, val_main_v1_apply, val_main_call0_v0_apply,
    val_main_call0_cst_apply]
  simp only [l0, r0, i2, i1]
  rfl

/-- A node's message. -/
theorem layer2 (x0 : (⟨S8x2048x128, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) : val_main_v9 (F := Ideal) x0 x2 x3 x4 x5 (ix3 b n j) = message (fun l => x0 (ix3 b n l)) (fun o k => x2 (ix2 o k)) (fun o => x3 (ix1 o)) (fun o k => x4 (ix2 o k)) (fun o => x5 (ix1 o)) j := by
  rw [val_main_v9_apply, val_main_v8_apply, val_main_v5_apply, val_main_v7_apply, val_main_v6_apply, val_main_call1_v0_apply,
    val_main_call1_cst_apply]
  simp only [l5, r5, i7, i6, layer1]
  rfl

/-- What a node gathers. -/
theorem gather (x0 : (⟨S8x2048x128, .f32⟩ : BufTy).Contents (Elt Ideal)) (x1 : (⟨S8x2048x2048, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) : val_main_v11 (F := Ideal) x0 x1 x2 x3 x4 x5 (ix3 b n j) = (gathered (fun k => x1 (ix3 b n k)) fun k => message (fun l => x0 (ix3 b k l)) (fun o k => x2 (ix2 o k)) (fun o => x3 (ix1 o)) (fun o k => x4 (ix2 o k)) (fun o => x5 (ix1 o))) j := by
  rw [val_main_v11_apply, val_main_v10_apply, val_main_call2_v0_apply, val_main_call2_cst_apply]
  simp only [l10, r10, layer2]
  rfl

/-- The gate pre-activations of what a node gathers, `gx`, -/
theorem gx (x0 : (⟨S8x2048x128, .f32⟩ : BufTy).Contents (Elt Ideal)) (x1 : (⟨S8x2048x2048, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S384x128, .f32⟩ : BufTy).Contents (Elt Ideal)) (x8 : (⟨S384, .f32⟩ : BufTy).Contents (Elt Ideal)) : val_main_v15 (F := Ideal) x0 x1 x2 x3 x4 x5 x6 x8 (ix3 b n q)
    = affine (gathered (fun k => x1 (ix3 b n k)) fun k => message (fun l => x0 (ix3 b k l)) (fun o k => x2 (ix2 o k)) (fun o => x3 (ix1 o)) (fun o k => x4 (ix2 o k)) (fun o => x5 (ix1 o))) (fun o k => x6 (ix2 o k)) (fun o => x8 (ix1 o)) q := by
  rw [val_main_v15_apply, val_main_v12_apply, val_main_v14_apply, val_main_v13_apply]
  simp only [l12, r12, i14, i13, gather]
  rfl

/-- and of the node's own features, `gh`. -/
theorem gh (x0 : (⟨S8x2048x128, .f32⟩ : BufTy).Contents (Elt Ideal)) (x7 : (⟨S384x128, .f32⟩ : BufTy).Contents (Elt Ideal)) (x9 : (⟨S384, .f32⟩ : BufTy).Contents (Elt Ideal)) : val_main_v19 (F := Ideal) x0 x7 x9 (ix3 b n q)
    = affine (fun k => x0 (ix3 b n k)) (fun o k => x7 (ix2 o k)) (fun o => x9 (ix1 o)) q := by
  rw [val_main_v19_apply, val_main_v16_apply, val_main_v18_apply, val_main_v17_apply]
  simp only [l16, r16, i18, i17]
  rfl

/-- The reference spells the logistic function as `1 / (1 + e⁻ᵗ)` over the word of `1.0`. -/
theorem sigmoid_eq (s : Ideal .f32) :
    FloatOps.hostDivf (FloatOps.ofBits .f32 0x3F800000#32) (FloatOps.addf (FloatOps.ofBits .f32 0x3F800000#32)
      (FloatOps.hostUnary .exp (FloatOps.hostNegf s))) = Ideal.logistic s := by
  show Ideal.div one (one + Ideal.exp (-s)) = _
  rw [one_eq]
  rfl

/-- The reference's result is the round of its arguments. -/
theorem result_eq (x0 : (⟨S8x2048x128, .f32⟩ : BufTy).Contents (Elt Ideal)) (x1 : (⟨S8x2048x2048, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S384x128, .f32⟩ : BufTy).Contents (Elt Ideal)) (x7 : (⟨S384x128, .f32⟩ : BufTy).Contents (Elt Ideal)) (x8 : (⟨S384, .f32⟩ : BufTy).Contents (Elt Ideal)) (x9 : (⟨S384, .f32⟩ : BufTy).Contents (Elt Ideal)) :
    val_main_v47 (F := Ideal) x0 x1 x2 x3 x4 x5 x6 x7 x8 x9 = roundOf x0 x1 x2 x3 x4 x5 x6 x7 x8 x9 := by
  funext i
  obtain ⟨b, n, j, rfl⟩ : ∃ (b : Fin 8) (n : Fin 2048) (j : Fin 128), i = ix3 b n j := ⟨i 0, i 1, i 2, eq_ix3 i⟩
  show _ = roundOfAt x0 x1 x2 x3 x4 x5 x6 x7 x8 x9 b n j
  unfold roundOfAt update cell
  simp only [val_main_v47_apply, val_main_v46_apply, val_main_v45_apply, val_main_v44_apply, val_main_v43_apply,
    val_main_v42_apply, val_main_v41_apply, val_main_v40_apply, val_main_v39_apply, val_main_v38_apply, val_main_v37_apply,
    val_main_v36_apply, val_main_v35_apply, val_main_v34_apply, val_main_v33_apply, val_main_v32_apply, val_main_v31_apply,
    val_main_v30_apply, val_main_v29_apply, val_main_v28_apply, val_main_v27_apply, val_main_v26_apply, val_main_v25_apply,
    val_main_v24_apply, val_main_v23_apply, val_main_v22_apply, val_main_v21_apply, val_main_v20_apply, val_main_cst_apply,
    val_main_cst_0_apply, val_main_cst_1_apply, val_main_cst_2_apply, val_main_cst_3_apply,
    i20, i21, i22, i23, i24, i25, gx, gh, sigmoid_eq]
  rfl

end Cert.ReferenceIdeal.RefRound

end
-- ==== Proof.lean ====
/-
  A round of message passing on eight dense graphs with a gated recurrent update: the fused kernel against its jnp
  reference, over the extended reals.

  Both programs compute, for every graph `b`, node `n` and coordinate `j`, the function `roundOf` of Round.lean: each node's
  message is a two-layer perceptron of its feature row; a node gathers the messages along its adjacency row; and the
  gated recurrent cell updates the node's features from what it gathered.  The kernel walks a grid of (graph, tile of 512
  nodes), forms a graph's messages once, at the graph's first tile, into a scratch buffer that the graph's other tiles
  read, and takes the weights transposed and the biases as one-row matrices; the reference is a chain of whole-array
  contractions.  At the extended reals a matrix product into a zero accumulator and a host contraction are the same plain
  sum over the contracted coordinate, the changes of float format are the identity, the kernel's logistic operation and
  the reference's `1 / (1 + e⁻ᵗ)` are one function, and no law is used that would need the inputs to be finite.  The
  frames of the two kernel programs are the generated ones; the reference's frame is its run with the result dropped;
  the idealization rewrote nothing.
-/
import proofs.«175723_j66872640798743_2_alg».proof.Defs
import proofs.«175723_j66872640798743_2_alg».proof.Proof.Gen.Kernel
import proofs.«175723_j66872640798743_2_alg».proof.Proof.Gen.Kernel.Frame
import proofs.«175723_j66872640798743_2_alg».proof.Proof.Gen.KernelIdeal
import proofs.«175723_j66872640798743_2_alg».proof.Proof.Gen.KernelIdeal.Frame
import proofs.«175723_j66872640798743_2_alg».proof.Proof.Gen.KernelIdeal.Value
import proofs.«175723_j66872640798743_2_alg».proof.Proof.Gen.ReferenceIdeal
import proofs.«175723_j66872640798743_2_alg».proof.Proof.Gen.ReferenceIdeal.Run
import proofs.«175723_j66872640798743_2_alg».proof.Proof.Gen.ReferenceIdeal.Read
import proofs.«175723_j66872640798743_2_alg».proof.Proof.Gen.Pre_finite_inputs
import proofs.«175723_j66872640798743_2_alg».proof.Proof.KernelArguments
import proofs.«175723_j66872640798743_2_alg».proof.Proof.ReferenceRound
import Idealize.ShloMosaic.Adequacy
import Idealize.ShloMosaic.Init

noncomputable section

namespace Cert.Proof

open Idealize.ShloMosaic Idealize.ShloMosaic.TcCoe Idealize.SL.Sem Cert.GatedMessagePassing

theorem frame_kernel [Cert.Kernel.Facts] [Cert.Pre_finite_inputs.Facts] : Cert.frame_Kernel :=
  fun m ρ _ => Cert.Kernel.Gen.frame m ρ

theorem frame_ideal [Cert.KernelIdeal.Facts] [Cert.Pre_finite_inputs.Facts] : Cert.frame_KernelIdeal :=
  fun m ρ _ => Cert.KernelIdeal.Gen.frame m ρ

/-- The reference's run, with the result dropped. -/
theorem frame_reference [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- Both result arrays end at the round of arguments that agree. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => roundOf
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)),
    Cert.KernelIdeal.Whole.run_args m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v47_eq, Cert.ReferenceIdeal.RefRound.result_eq,
    (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]

theorem claim : Cert.Claim := ⟨Cert.Kernel.Gen.facts, Cert.KernelIdeal.Gen.facts, Cert.ReferenceIdeal.Gen.facts, Cert.Pre_finite_inputs.Gen.facts,
  frame_kernel, frame_ideal, frame_reference, trivial, algebraic⟩

end Cert.Proof

end
